-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S1600000 .f32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S1600000 32) (main_arg11 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S8000x128 : Shape := ⟨2, ![8000, 128]⟩
abbrev S8000x1 : Shape := ⟨2, ![8000, 1]⟩

abbrev nBuf : Space → Nat
  | .hbm => 53
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S1x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x1, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S1x128, .f32⟩
  | .hbm, ⟨52, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x128, .f32⟩
  | .local _ .vmem, ⟨7, _⟩ => ⟨S8000x128, .f32⟩
  | .local _ .vmem, ⟨8, _⟩ => ⟨S8000x1, .f32⟩
  | .local _ .vmem, ⟨9, _⟩ => ⟨S8000x1, .f32⟩
  | .local _ .vmem, ⟨10, _⟩ => ⟨S8000x128, .f32⟩
  | .local _ .vmem, ⟨11, _⟩ => ⟨S8000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x1, .f32⟩
  | .local _ .vmem, ⟨21, _⟩ => ⟨S8000x1, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S1600000x128.size a
  hwx3_0 : ∀ i : grid3.Coords, EltTy.bits .f32 = 32 ∨ (Rect.block (s := S1600000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S1600000x128.size a
  hwx3_2 : ∀ i : grid3.Coords, EltTy.bits .f32 = 32 ∨ (Rect.block (s := S1600000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v31) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v33) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x1, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«179834_j2774548873594_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibGcnLaws.lean ====
/-
  The two layer laws of a graph convolution written over whole arrays, and the same layers as a kernel tile spells them,
  each read at an index on the extended reals.

  A dense layer over a bias ROW: entry (r, j) is the sum over k of x(r, k) · w(k, j), plus b(0, j). The host spells it as a
  matrix product plus the bias row spread down the rows; a tile spells it as a product of narrowed operands (narrowing is the
  identity on the extended reals) into a zero accumulator plus the row spread down the tile's rows. A tile that holds rows
  off, off+1, … of x therefore holds exactly those rows of the whole layer: nothing but the row index moves, and no sum is
  regrouped.

  An edge scaling over a weight COLUMN: entry (e, j) is g(e, j) · col(e, 0), on the host by spreading the column across the
  lanes and in a tile by spreading the tile's slice of the column.

  A vector recast as a row, or as a column, is the vector spread into that shape: both read entry j.
  Nothing here depends on a program.
-/
import proofs.«179834_j2774548873594_1_alg».proof.Proof.LibPlainDot
import proofs.«179834_j2774548873594_1_alg».proof.Proof.LibPlainDotGeneral
import proofs.«179834_j2774548873594_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace GcnLaws

open Idealize.ShloMosaic Idealize.ShloMosaic.ValueIdx

variable {M K N E T : Nat}

/-! ## The dense layer -/

/-- The host's dense layer over a bias row: the matrix product plus the row spread down the rows. -/
def dense (D : DotDims ⟨2, ![M, K]⟩ ⟨2, ![K, N]⟩ ⟨2, ![M, N]⟩)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32) :
    FVec Ideal ⟨2, ![M, N]⟩ .f32 :=
  addf (Host.dotGeneral (F := Ideal) D none x w) (broadcastInDim ⟨2, ![M, N]⟩ (![0, 1] : Fin 2 → Fin 2) hb b)

/-- A row spread down the rows by the host reads, at (r, j), the row's entry j. -/
theorem rowDown_apply {α : Type} (hb : (⟨2, ![1, N]⟩ : Shape).BroadcastsInDim ⟨2, ![M, N]⟩ (![0, 1] : Fin 2 → Fin 2))
    (b : (⟨2, ![1, N]⟩ : Shape).Idx → α) (r : Fin M) (j : Fin N) :
    broadcastInDim ⟨2, ![M, N]⟩ (![0, 1] : Fin 2 → Fin 2) hb b (ix2 r j) = b (ix2 (0 : Fin 1) j) := by
  refine broadcastInDim_apply _ hb b (ix2 r j) (ix2 (0 : Fin 1) j) fun a => ?_
  match a with
  | ⟨0, _⟩ => rfl
  | ⟨1, _⟩ =>
    show j.val = if N = 1 then 0 else j.val
    split
    · have := j.isLt; omega
    · rfl

/-- The host's dense layer at (r, j). -/
theorem dense_apply (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32)
    (r : Fin M) (j : Fin N) :
    dense D hb x w b (ix2 r j) = (∑ k : Fin K, x (ix2 r k) * w (ix2 k j)) + b (ix2 (0 : Fin 1) j) := by
  unfold dense
  rw [addf_apply, PlainDot.dotGeneral_apply D hD none x w r j, rowDown_apply hb b r j]

/-- A tile's dense layer at (p, j): narrowed operands into a zero accumulator, plus the bias row spread down the tile's
    rows. (A tile recasts some operands to their own shape first; that is the identity and is removed before this reading.) -/
theorem denseTile_apply (D : DotDims ⟨2, ![T, K]⟩ ⟨2, ![K, N]⟩ ⟨2, ![T, N]⟩) (hD : PlainDot.IsPlain D)
    (x : FVec Ideal ⟨2, ![T, K]⟩ .f32) (w : FVec Ideal ⟨2, ![K, N]⟩ .f32) (b : FVec Ideal ⟨2, ![1, N]⟩ .f32)
    (h1 h2 : FTy.bf16.bits < FTy.f32.bits) (hbb : (⟨2, ![1, N]⟩ : Shape).Broadcasts ⟨2, ![T, N]⟩)
    (p : Fin T) (j : Fin N) :
    addf (matmul D none (truncf .bf16 x h1) (truncf .bf16 w h2) (constant (F := Ideal) ⟨2, ![T, N]⟩ .f32 0x00000000#32))
        (broadcastTo ⟨2, ![T, N]⟩ b hbb) (ix2 p j)
      = (∑ k : Fin K, x (ix2 p k) * w (ix2 k j)) + b (ix2 (0 : Fin 1) j) := by
  rw [addf_apply, broadcastTo_1b_ab_apply b hbb p j]
  exact congrArg (· + b (ix2 (0 : Fin 1) j))
    (PlainDot.matmul_zero_apply D hD none (truncf .bf16 x h1) (truncf .bf16 w h2) p j)

/-- THE DENSE LAW: a tile holding the rows off + p of x computes the rows off + p of the whole layer. -/
theorem denseTile_eq_dense (Dt : DotDims ⟨2, ![T, K]⟩ ⟨2, ![K, N]⟩ ⟨2, ![T, N]⟩) (hDt : PlainDot.IsPlain Dt)
    (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (X : FVec Ideal ⟨2, ![M, K]⟩ .f32) (w : FVec Ideal ⟨2, ![K, N]⟩ .f32) (b : FVec Ideal ⟨2, ![1, N]⟩ .f32)
    (x : FVec Ideal ⟨2, ![T, K]⟩ .f32) (h1 h2 : FTy.bf16.bits < FTy.f32.bits)
    (hbb : (⟨2, ![1, N]⟩ : Shape).Broadcasts ⟨2, ![T, N]⟩)
    (p : Fin T) (r : Fin M) (j : Fin N) (hx : ∀ k : Fin K, x (ix2 p k) = X (ix2 r k)) :
    addf (matmul Dt none (truncf .bf16 x h1) (truncf .bf16 w h2) (constant (F := Ideal) ⟨2, ![T, N]⟩ .f32 0x00000000#32))
        (broadcastTo ⟨2, ![T, N]⟩ b hbb) (ix2 p j)
      = dense D hb X w b (ix2 r j) := by
  rw [denseTile_apply Dt hDt x w b h1 h2 hbb p j, dense_apply D hD hb X w b r j]
  exact congrArg (· + b (ix2 (0 : Fin 1) j)) (Finset.sum_congr rfl fun k _ => by rw [hx k])

/-! ## The edge scaling -/

/-- The host's edge scaling over a weight column: the messages times the column spread across the lanes. -/
def scale (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) : FVec Ideal ⟨2, ![E, N]⟩ .f32 :=
  mulf g (broadcastInDim ⟨2, ![E, N]⟩ (![0, 1] : Fin 2 → Fin 2) hb col)

/-- A column spread across the lanes by the host reads, at (e, j), the column's entry e. -/
theorem colAcross_apply {α : Type} (hb : (⟨2, ![E, 1]⟩ : Shape).BroadcastsInDim ⟨2, ![E, N]⟩ (![0, 1] : Fin 2 → Fin 2))
    (col : (⟨2, ![E, 1]⟩ : Shape).Idx → α) (e : Fin E) (j : Fin N) :
    broadcastInDim ⟨2, ![E, N]⟩ (![0, 1] : Fin 2 → Fin 2) hb col (ix2 e j) = col (ix2 e (0 : Fin 1)) := by
  refine broadcastInDim_apply _ hb col (ix2 e j) (ix2 e (0 : Fin 1)) fun a => ?_
  match a with
  | ⟨0, _⟩ =>
    show e.val = if E = 1 then 0 else e.val
    split
    · have := e.isLt; omega
    · rfl
  | ⟨1, _⟩ => rfl

/-- The host's edge scaling at (e, j). -/
theorem scale_apply (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) (e : Fin E) (j : Fin N) :
    scale hb g col (ix2 e j) = g (ix2 e j) * col (ix2 e (0 : Fin 1)) := by
  unfold scale
  rw [mulf_apply, colAcross_apply hb col e j]

/-- THE SCALING LAW: a tile holding the rows off + p of the messages and of the column computes those rows of the whole
    scaling. (The tile's identical recasts of both operands are removed before this reading.) -/
theorem scaleTile_eq_scale (hb : (⟨2, ![E, 1]⟩ : Shape).BroadcastsInDim ⟨2, ![E, N]⟩ (![0, 1] : Fin 2 → Fin 2))
    (Gm : FVec Ideal ⟨2, ![E, N]⟩ .f32) (Col : FVec Ideal ⟨2, ![E, 1]⟩ .f32)
    (g : FVec Ideal ⟨2, ![T, N]⟩ .f32) (col : FVec Ideal ⟨2, ![T, 1]⟩ .f32)
    (hbb : (⟨2, ![T, 1]⟩ : Shape).Broadcasts ⟨2, ![T, N]⟩)
    (p : Fin T) (e : Fin E) (j : Fin N) (hgx : g (ix2 p j) = Gm (ix2 e j)) (hcx : col (ix2 p (0 : Fin 1)) = Col (ix2 e (0 : Fin 1))) :
    mulf g (broadcastTo ⟨2, ![T, N]⟩ col hbb) (ix2 p j) = scale hb Gm Col (ix2 e j) := by
  rw [mulf_apply, Keepdims.broadcastTo_a1_ab_apply col hbb p j, scale_apply hb Gm Col e j, hgx, hcx]

/-! ## The rectifier -/

/-- The host's zero splat reads the zero word's value everywhere. -/
theorem zeroSplat_apply (s : Shape) (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i
      = Ideal.ofBits .f32 0x00000000#32 :=
  broadcastInDim_apply _ h _ i (fun a => a.elim0) (fun a => a.elim0)

/-- The host's rectifier: the maximum with the zero splat. -/
def relu (s : Shape) (h : (⟨0, ![]⟩ : Shape).BroadcastsInDim s (![] : Fin 0 → Fin s.rank)) (a : FVec Ideal s .f32) : FVec Ideal s .f32 :=
  maximumf a (broadcastInDim s (![] : Fin 0 → Fin s.rank) h (constant (F := Ideal) ⟨0, ![]⟩ .f32 0x00000000#32))

/-- A tile's rectifier — the maximum with a splat of the scalar zero — at an index whose value is the whole array's at
    another index, is the host's rectifier of the whole array there. -/
theorem reluTile_eq_relu (s s' : Shape) (h : (⟨0, ![]⟩ : Shape).BroadcastsInDim s (![] : Fin 0 → Fin s.rank))
    (A : FVec Ideal s .f32) (a : FVec Ideal s' .f32) (j : s'.Idx) (i : s.Idx) (hai : a j = A i) :
    maximumf a (broadcast s' (Scalar.ofBits (F := Ideal) .f32 0x00000000#32)) j = relu s h A i := by
  unfold relu
  rw [maximumf_apply, maximumf_apply, zeroSplat_apply s h i, hai]
  rfl

/-! ## A vector recast as a row or a column is the vector spread into that shape -/

/-- A vector recast as a one-row matrix is the vector spread along the row. -/
theorem rowCast_eq_rowSpread {α : Type} (b : (⟨1, ![N]⟩ : Shape).Idx → α) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ (![1] : Fin 1 → Fin 2) hb b := by
  funext i
  obtain ⟨u, j, rfl⟩ : ∃ (u : Fin 1) (j : Fin N), i = ix2 u j := ⟨i 0, i 1, eq_ix2 i⟩
  rw [shapeCast_a_1a_apply b hc u j]
  refine (broadcastInDim_apply _ hb b (ix2 u j) (ix1 j) fun a => ?_).symm
  match a with
  | ⟨0, _⟩ =>
    show j.val = if N = 1 then 0 else j.val
    split
    · have := j.isLt; omega
    · rfl

/-- A vector recast as a one-column matrix is the vector spread down the column. -/
theorem colCast_eq_colSpread {α : Type} (w : (⟨1, ![E]⟩ : Shape).Idx → α) (hc : (⟨1, ![E]⟩ : Shape).ShapeCasts ⟨2, ![E, 1]⟩)
    (hb : (⟨1, ![E]⟩ : Shape).BroadcastsInDim ⟨2, ![E, 1]⟩ (![0] : Fin 1 → Fin 2)) :
    shapeCast ⟨2, ![E, 1]⟩ w hc = broadcastInDim ⟨2, ![E, 1]⟩ (![0] : Fin 1 → Fin 2) hb w := by
  funext i
  obtain ⟨e, u, rfl⟩ : ∃ (e : Fin E) (u : Fin 1), i = ix2 e u := ⟨i 0, i 1, eq_ix2 i⟩
  rw [Keepdims.shapeCast_a_a1_apply w hc e u]
  refine (broadcastInDim_apply _ hb w (ix2 e u) (ix1 e) fun a => ?_).symm
  match a with
  | ⟨0, _⟩ =>
    show e.val = if E = 1 then 0 else e.val
    split
    · have := e.isLt; omega
    · rfl

end GcnLaws

end
-- ==== Proof.Dense0.lean ====
/-
  Pallas call 0: the first dense layer, over 20 tiles of 5000 rows.
  Tile t reads rows 5000·t … 5000·t + 4999 of the node features (all 256 columns), the whole weight matrix and the whole
  bias row, and writes rows 5000·t … of the result. By the dense law each written row is that row of the whole layer
  x · W + b, so — the 20 tiles covering all 100000 rows — the result array ends as the whole layer of the arrays the call
  was entered with. Stated at any contents `V` the call may be entered with, and for any plain-product record `D` and
  broadcast witness `hb` the whole layer is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The tile's product record is a plain [5000, 256] × [256, 128] product. -/
theorem tile_plain : PlainDot.IsPlain (M := 5000) (K := 256) (N := 128) dot_S5000x256_S256x128_S5000x128_1_0_0_1_n_n where
  rank := rfl
  size := rfl
  lhs0 := fun i q => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  lhs1 := fun i q => dot_S5000x256_S256x128_S5000x128_1_0_0_1_n_n.lhsIdx_val_of_single rfl i q
  rhs0 := fun i q => dot_S5000x256_S256x128_S5000x128_1_0_0_1_n_n.rhsIdx_val_of_single rfl i q
  rhs1 := fun i q => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- What a tile stores, at entry j of the tile, is entry i of the whole layer, when i is j's column and the tile's row
    (j 0) of the activations is the whole array's row (i 0); the weight and bias blocks are the whole arrays. -/
theorem tile_eq (D : DotDims S100000x256 S256x128 S100000x128) (hD : PlainDot.IsPlain (M := 100000) (K := 256) (N := 128) D)
    (hb : S1x128.BroadcastsInDim S100000x128 (![0, 1] : Fin 2 → Fin 2))
    (X : FVec Ideal S100000x256 .f32) (W : FVec Ideal S256x128 .f32) (B : FVec Ideal S1x128 .f32)
    (x0 : Vec Ideal S5000x256 .f32) (w1 : Vec Ideal S256x128 .f32) (b2 : Vec Ideal S1x128 .f32) (hw : w1 = W) (hb2 : b2 = B)
    (j : S5000x128.Idx) (i : S100000x128.Idx) (h1 : (i 1).val = (j 1).val)
    (hx : ∀ k : Fin 256, x0 (ix2 (⟨(j 0).val, (j 0).isLt⟩ : Fin 5000) k) = X (ix2 (⟨(i 0).val, (i 0).isLt⟩ : Fin 100000) k)) :
    k0_pay1 x0 w1 b2 j = GcnLaws.dense (M := 100000) (K := 256) (N := 128) D hb X W B i := by
  subst hw hb2
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  unfold k0_pay1
  rw [shapeCast_self]
  exact GcnLaws.denseTile_eq_dense (T := 5000) (M := 100000) (K := 256) (N := 128) _ tile_plain D hD hb X w1 b2 x0 _ _ _ p r s hx

theorem hz : (![0, 0] : Fin 2 → Nat) = fun _ => 0 := funext fun a => by fin_cases a <;> rfl

/-- The printed index maps, decided over the grid: the activation and result tiles move together down the rows; the
    weight and the bias row stay at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every row block is some tile's. -/
theorem idx_onto : ∀ q0 : Fin 20, ∃ t : Fin cfg0.N, win0_3.index t = ![q0.val, 0] :=
  (by decide +kernel : ∀ q0 : Fin 20, ∃ t : Fin grid0.N, win0_3.index t = ![q0.val, 0])

section
variable (V : (c : Dev nD) → (b : Ref sig .tc) → Buf (Elt Ideal) ((c : Thread nD τ).loc b))

/-- The weight block at any tile is the whole weight matrix. -/
theorem blk1 (c : Dev nD) (t : Fin cfg0.N) : (iblk0 V c 1 t : S256x128.Idx → EReal) = (V c main_arg2 : S256x128.Idx → EReal) := by
  obtain ⟨e0, e1, e2, e3, e4, e5, e6, e7⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The bias block at any tile is the whole bias row. -/
theorem blk2 (c : Dev nD) (t : Fin cfg0.N) : (iblk0 V c 2 t : S1x128.Idx → EReal) = (V c main_v0 : S1x128.Idx → EReal) := by
  obtain ⟨e0, e1, e2, e3, e4, e5, e6, e7⟩ := idx_facts t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The whole layer of the arrays the call is entered with. -/
abbrev layer (D : DotDims S100000x256 S256x128 S100000x128) (hb : S1x128.BroadcastsInDim S100000x128 (![0, 1] : Fin 2 → Fin 2))
    (c : Dev nD) : S100000x128.Idx → EReal :=
  GcnLaws.dense (M := 100000) (K := 256) (N := 128) D hb (V c main_arg0) (V c main_arg2) (V c main_v0)

/-- WHAT TILE t WRITES BACK is block t of the whole layer. -/
theorem flushed (D : DotDims S100000x256 S256x128 S100000x128) (hD : PlainDot.IsPlain (M := 100000) (K := 256) (N := 128) D)
    (hb : S1x128.BroadcastsInDim S100000x128 (![0, 1] : Fin 2 → Fin 2)) (c : Dev nD) (t : Fin cfg0.N) :
    (dat0 V c).flushed 3 t = ((cfg0.win 3).blk t).view.read (Elt Ideal) (layer V D hb c) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨e0, e1, e2, e3, e4, e5, e6, e7⟩ := idx_facts t
  funext j
  refine tile_eq D hD hb (V c main_arg0) (V c main_arg2) (V c main_v0) (iblk0 V c 0 t) (iblk0 V c 1 t) (iblk0 V c 2 t)
    (blk1 V c t) (blk2 V c t) j (((cfg0.win 3).blk t).view.emb j) ?_ ?_
  · show win0_3.index t (1 : Fin 2) * 128 + 1 * (j 1).val = (j 1).val
    omega
  · intro k
    show V c main_arg0 (((cfg0.win 0).blk t).view.emb (ix2 (⟨(j 0).val, (j 0).isLt⟩ : Fin 5000) k)) = V c main_arg0 _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega

/-- An index of the result is in tile t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The tiles cover the result: row r is in tile r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the call: the whole layer of the arrays it was entered with. -/
theorem final (D : DotDims S100000x256 S256x128 S100000x128) (hD : PlainDot.IsPlain (M := 100000) (K := 256) (N := 128) D)
    (hb : S1x128.BroadcastsInDim S100000x128 (![0, 1] : Fin 2 → Fin 2)) (c : Dev nD) :
    (dat0 V c).arrAt 3 cfg0.N = layer V D hb c :=
  (dat0 V c).arrAt_eq_of_cover 3 (layer V D hb c) (fun t _ => flushed V D hD hb c t) cover

end

end Cert.KernelIdeal.Dense0

end
-- ==== Proof.Dense2.lean ====
/-
  Pallas call 2: a 128 → 128 dense layer, over 20 tiles of 5000 rows.
  Tile t reads rows 5000·t … 5000·t + 4999 of the activations (all 128 columns), the whole weight matrix and the whole bias
  row, and writes rows 5000·t … of the result. By the dense law each written row is that row of the whole layer
  x · W + b, so — the 20 tiles covering all 100000 rows — the result array ends as the whole layer of the arrays the call
  was entered with. Stated at any contents `V` the call may be entered with, and for any plain-product record `D` and
  broadcast witness `hb` the whole layer is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Dense2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The tile's product record is a plain [5000, 128] × [128, 128] product. -/
theorem tile_plain : PlainDot.IsPlain (M := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- What a tile stores, at entry j of the tile, is entry i of the whole layer, when i is j's column and the tile's row
    (j 0) of the activations is the whole array's row (i 0); the weight and bias blocks are the whole arrays. -/
theorem tile_eq (D : DotDims S100000x128 S128x128 S100000x128) (hD : PlainDot.IsPlain (M := 100000) (K := 128) (N := 128) D)
    (hb : S1x128.BroadcastsInDim S100000x128 (![0, 1] : Fin 2 → Fin 2))
    (X : FVec Ideal S100000x128 .f32) (W : FVec Ideal S128x128 .f32) (B : FVec Ideal S1x128 .f32)
    (x0 : Vec Ideal S5000x128 .f32) (w1 : Vec Ideal S128x128 .f32) (b2 : Vec Ideal S1x128 .f32) (hw : w1 = W) (hb2 : b2 = B)
    (j : S5000x128.Idx) (i : S100000x128.Idx) (h1 : (i 1).val = (j 1).val)
    (hx : ∀ k : Fin 128, x0 (ix2 (⟨(j 0).val, (j 0).isLt⟩ : Fin 5000) k) = X (ix2 (⟨(i 0).val, (i 0).isLt⟩ : Fin 100000) k)) :
    k2_pay1 x0 w1 b2 j = GcnLaws.dense (M := 100000) (K := 128) (N := 128) D hb X W B i := by
  subst hw hb2
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  unfold k2_pay1
  rw [shapeCast_self, shapeCast_self]
  exact GcnLaws.denseTile_eq_dense (T := 5000) (M := 100000) (K := 128) (N := 128) _ tile_plain D hD hb X w1 b2 x0 _ _ _ p r s hx

theorem hz : (![0, 0] : Fin 2 → Nat) = fun _ => 0 := funext fun a => by fin_cases a <;> rfl

/-- The printed index maps, decided over the grid: the activation and result tiles move together down the rows; the
    weight and the bias row stay at block (0, 0). -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 ∧ win2_3.index t (1 : Fin 2) = 0 :=
  (by decide +kernel : ∀ t : Fin grid2.N, _)

/-- Every row block is some tile's. -/
theorem idx_onto : ∀ q0 : Fin 20, ∃ t : Fin cfg2.N, win2_3.index t = ![q0.val, 0] :=
  (by decide +kernel : ∀ q0 : Fin 20, ∃ t : Fin grid2.N, win2_3.index t = ![q0.val, 0])

section
variable (V : (c : Dev nD) → (b : Ref sig .tc) → Buf (Elt Ideal) ((c : Thread nD τ).loc b))

/-- The weight block at any tile is the whole weight matrix. -/
theorem blk1 (c : Dev nD) (t : Fin cfg2.N) : (iblk2 V c 1 t : S128x128.Idx → EReal) = (V c main_arg4 : S128x128.Idx → EReal) := by
  obtain ⟨e0, e1, e2, e3, e4, e5, e6, e7⟩ := idx_facts t
  funext y
  show V c main_arg4 (((cfg2.win 1).blk t).view.emb y) = V c main_arg4 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias block at any tile is the whole bias row. -/
theorem blk2 (c : Dev nD) (t : Fin cfg2.N) : (iblk2 V c 2 t : S1x128.Idx → EReal) = (V c main_v16 : S1x128.Idx → EReal) := by
  obtain ⟨e0, e1, e2, e3, e4, e5, e6, e7⟩ := idx_facts t
  funext y
  show V c main_v16 (((cfg2.win 2).blk t).view.emb y) = V c main_v16 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The whole layer of the arrays the call is entered with. -/
abbrev layer (D : DotDims S100000x128 S128x128 S100000x128) (hb : S1x128.BroadcastsInDim S100000x128 (![0, 1] : Fin 2 → Fin 2))
    (c : Dev nD) : S100000x128.Idx → EReal :=
  GcnLaws.dense (M := 100000) (K := 128) (N := 128) D hb (V c main_v15) (V c main_arg4) (V c main_v16)

/-- WHAT TILE t WRITES BACK is block t of the whole layer. -/
theorem flushed (D : DotDims S100000x128 S128x128 S100000x128) (hD : PlainDot.IsPlain (M := 100000) (K := 128) (N := 128) D)
    (hb : S1x128.BroadcastsInDim S100000x128 (![0, 1] : Fin 2 → Fin 2)) (c : Dev nD) (t : Fin cfg2.N) :
    (dat2 V c).flushed 3 t = ((cfg2.win 3).blk t).view.read (Elt Ideal) (layer V D hb c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine tile_eq D hD hb (V c main_v15) (V c main_arg4) (V c main_v16) (iblk2 V c 0 t) (iblk2 V c 1 t) (iblk2 V c 2 t)
    (blk1 V c t) (blk2 V c t) j (((cfg2.win 3).blk t).view.emb j) ?_ ?_
  · show win2_3.index t (1 : Fin 2) * 128 + 1 * (j 1).val = (j 1).val
    omega
  · intro k
    show V c main_v15 (((cfg2.win 0).blk t).view.emb (ix2 (⟨(j 0).val, (j 0).isLt⟩ : Fin 5000) k)) = V c main_v15 _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega

/-- An index of the result is in tile t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v17).slice (win2_3.rect t)).set ↔ _
  rw [View.set_slice_whole, Rect.mem_set_unit]
  exact Iff.rfl

/-- The tiles cover the result: row r is in tile r / 5000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE RESULT ARRAY after the call: the whole layer of the arrays it was entered with. -/
theorem final (D : DotDims S100000x128 S128x128 S100000x128) (hD : PlainDot.IsPlain (M := 100000) (K := 128) (N := 128) D)
    (hb : S1x128.BroadcastsInDim S100000x128 (![0, 1] : Fin 2 → Fin 2)) (c : Dev nD) :
    (dat2 V c).arrAt 3 cfg2.N = layer V D hb c :=
  (dat2 V c).arrAt_eq_of_cover 3 (layer V D hb c) (fun t _ => flushed V D hD hb c t) cover

end

end Cert.KernelIdeal.Dense2

end
-- ==== Proof.Dense4.lean ====
/-
  Pallas call 4: the first layer of the projection head with its rectifier fused, over 20 tiles of 5000 rows.
  Tile t reads rows 5000·t … 5000·t + 4999 of the embeddings (all 128 columns), the whole weight matrix and the whole bias
  row, and writes rows 5000·t … of the result: the dense layer's row, rectified. By the dense law each written row is that
  row of the whole layer x · W + b, and the rectifier acts entry by entry, so — the 20 tiles covering all 100000 rows — the
  result array ends as the rectified whole layer of the arrays the call was entered with. Stated at any contents `V` the
  call may be entered with, and for any plain-product record `D` and broadcast witnesses the whole layer is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Dense4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The tile's product record is a plain [5000, 128] × [128, 128] product. -/
theorem tile_plain : PlainDot.IsPlain (M := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- What a tile stores, at entry j of the tile, is entry i of the rectified whole layer, when i is j's column and the tile's row
    (j 0) of the activations is the whole array's row (i 0); the weight and bias blocks are the whole arrays. -/
theorem tile_eq (D : DotDims S100000x128 S128x128 S100000x128) (hD : PlainDot.IsPlain (M := 100000) (K := 128) (N := 128) D)
    (hb : S1x128.BroadcastsInDim S100000x128 (![0, 1] : Fin 2 → Fin 2))
    (h0 : S_.BroadcastsInDim S100000x128 (![] : Fin 0 → Fin S100000x128.rank))
    (X : FVec Ideal S100000x128 .f32) (W : FVec Ideal S128x128 .f32) (B : FVec Ideal S1x128 .f32)
    (x0 : Vec Ideal S5000x128 .f32) (w1 : Vec Ideal S128x128 .f32) (b2 : Vec Ideal S1x128 .f32) (hw : w1 = W) (hb2 : b2 = B)
    (j : S5000x128.Idx) (i : S100000x128.Idx) (h1 : (i 1).val = (j 1).val)
    (hx : ∀ k : Fin 128, x0 (ix2 (⟨(j 0).val, (j 0).isLt⟩ : Fin 5000) k) = X (ix2 (⟨(i 0).val, (i 0).isLt⟩ : Fin 100000) k)) :
    k4_pay1 x0 w1 b2 j = GcnLaws.relu S100000x128 h0 (GcnLaws.dense (M := 100000) (K := 128) (N := 128) D hb X W B) i := by
  subst hw hb2
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  unfold k4_pay1
  rw [shapeCast_self, shapeCast_self]
  exact GcnLaws.reluTile_eq_relu S100000x128 S5000x128 h0 _ _ (ix2 p s) (ix2 r s)
    (GcnLaws.denseTile_eq_dense (T := 5000) (M := 100000) (K := 128) (N := 128) _ tile_plain D hD hb X w1 b2 x0 _ _ _ p r s hx)

theorem hz : (![0, 0] : Fin 2 → Nat) = fun _ => 0 := funext fun a => by fin_cases a <;> rfl

/-- The printed index maps, decided over the grid: the activation and result tiles move together down the rows; the
    weight and the bias row stay at block (0, 0). -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 19 ∧ win4_3.index t (1 : Fin 2) = 0 :=
  (by decide +kernel : ∀ t : Fin grid4.N, _)

/-- Every row block is some tile's. -/
theorem idx_onto : ∀ q0 : Fin 20, ∃ t : Fin cfg4.N, win4_3.index t = ![q0.val, 0] :=
  (by decide +kernel : ∀ q0 : Fin 20, ∃ t : Fin grid4.N, win4_3.index t = ![q0.val, 0])

section
variable (V : (c : Dev nD) → (b : Ref sig .tc) → Buf (Elt Ideal) ((c : Thread nD τ).loc b))

/-- The weight block at any tile is the whole weight matrix. -/
theorem blk1 (c : Dev nD) (t : Fin cfg4.N) : (iblk4 V c 1 t : S128x128.Idx → EReal) = (V c main_arg6 : S128x128.Idx → EReal) := by
  obtain ⟨e0, e1, e2, e3, e4, e5, e6, e7⟩ := idx_facts t
  funext y
  show V c main_arg6 (((cfg4.win 1).blk t).view.emb y) = V c main_arg6 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The bias block at any tile is the whole bias row. -/
theorem blk2 (c : Dev nD) (t : Fin cfg4.N) : (iblk4 V c 2 t : S1x128.Idx → EReal) = (V c main_v30 : S1x128.Idx → EReal) := by
  obtain ⟨e0, e1, e2, e3, e4, e5, e6, e7⟩ := idx_facts t
  funext y
  show V c main_v30 (((cfg4.win 2).blk t).view.emb y) = V c main_v30 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The rectified whole layer of the arrays the call is entered with. -/
abbrev layer (D : DotDims S100000x128 S128x128 S100000x128) (hb : S1x128.BroadcastsInDim S100000x128 (![0, 1] : Fin 2 → Fin 2))
    (h0 : S_.BroadcastsInDim S100000x128 (![] : Fin 0 → Fin S100000x128.rank))
    (c : Dev nD) : S100000x128.Idx → EReal :=
  GcnLaws.relu S100000x128 h0 <| GcnLaws.dense (M := 100000) (K := 128) (N := 128) D hb (V c main_v29) (V c main_arg6) (V c main_v30)

/-- WHAT TILE t WRITES BACK is block t of the rectified whole layer. -/
theorem flushed (D : DotDims S100000x128 S128x128 S100000x128) (hD : PlainDot.IsPlain (M := 100000) (K := 128) (N := 128) D)
    (hb : S1x128.BroadcastsInDim S100000x128 (![0, 1] : Fin 2 → Fin 2))
    (h0 : S_.BroadcastsInDim S100000x128 (![] : Fin 0 → Fin S100000x128.rank)) (c : Dev nD) (t : Fin cfg4.N) :
    (dat4 V c).flushed 3 t = ((cfg4.win 3).blk t).view.read (Elt Ideal) (layer V D hb h0 c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine tile_eq D hD hb h0 (V c main_v29) (V c main_arg6) (V c main_v30) (iblk4 V c 0 t) (iblk4 V c 1 t) (iblk4 V c 2 t)
    (blk1 V c t) (blk2 V c t) j (((cfg4.win 3).blk t).view.emb j) ?_ ?_
  · show win4_3.index t (1 : Fin 2) * 128 + 1 * (j 1).val = (j 1).val
    omega
  · intro k
    show V c main_v29 (((cfg4.win 0).blk t).view.emb (ix2 (⟨(j 0).val, (j 0).isLt⟩ : Fin 5000) k)) = V c main_v29 _
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega

/-- An index of the result is in tile t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v31).slice (win4_3.rect t)).set ↔ _
  rw [View.set_slice_whole, Rect.mem_set_unit]
  exact Iff.rfl

/-- The tiles cover the result: row r is in tile r / 5000. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- THE RESULT ARRAY after the call: the rectified whole layer of the arrays it was entered with. -/
theorem final (D : DotDims S100000x128 S128x128 S100000x128) (hD : PlainDot.IsPlain (M := 100000) (K := 128) (N := 128) D)
    (hb : S1x128.BroadcastsInDim S100000x128 (![0, 1] : Fin 2 → Fin 2))
    (h0 : S_.BroadcastsInDim S100000x128 (![] : Fin 0 → Fin S100000x128.rank)) (c : Dev nD) :
    (dat4 V c).arrAt 3 cfg4.N = layer V D hb h0 c :=
  (dat4 V c).arrAt_eq_of_cover 3 (layer V D hb h0 c) (fun t _ => flushed V D hD hb h0 c t) cover

end

end Cert.KernelIdeal.Dense4

end
-- ==== Proof.Dense5.lean ====
/-
  Pallas call 5: a 128 → 128 dense layer, over 20 tiles of 5000 rows.
  Tile t reads rows 5000·t … 5000·t + 4999 of the activations (all 128 columns), the whole weight matrix and the whole bias
  row, and writes rows 5000·t … of the result. By the dense law each written row is that row of the whole layer
  x · W + b, so — the 20 tiles covering all 100000 rows — the result array ends as the whole layer of the arrays the call
  was entered with. Stated at any contents `V` the call may be entered with, and for any plain-product record `D` and
  broadcast witness `hb` the whole layer is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Dense5

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The tile's product record is a plain [5000, 128] × [128, 128] product. -/
theorem tile_plain : PlainDot.IsPlain (M := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- What a tile stores, at entry j of the tile, is entry i of the whole layer, when i is j's column and the tile's row
    (j 0) of the activations is the whole array's row (i 0); the weight and bias blocks are the whole arrays. -/
theorem tile_eq (D : DotDims S100000x128 S128x128 S100000x128) (hD : PlainDot.IsPlain (M := 100000) (K := 128) (N := 128) D)
    (hb : S1x128.BroadcastsInDim S100000x128 (![0, 1] : Fin 2 → Fin 2))
    (X : FVec Ideal S100000x128 .f32) (W : FVec Ideal S128x128 .f32) (B : FVec Ideal S1x128 .f32)
    (x0 : Vec Ideal S5000x128 .f32) (w1 : Vec Ideal S128x128 .f32) (b2 : Vec Ideal S1x128 .f32) (hw : w1 = W) (hb2 : b2 = B)
    (j : S5000x128.Idx) (i : S100000x128.Idx) (h1 : (i 1).val = (j 1).val)
    (hx : ∀ k : Fin 128, x0 (ix2 (⟨(j 0).val, (j 0).isLt⟩ : Fin 5000) k) = X (ix2 (⟨(i 0).val, (i 0).isLt⟩ : Fin 100000) k)) :
    k5_pay1 x0 w1 b2 j = GcnLaws.dense (M := 100000) (K := 128) (N := 128) D hb X W B i := by
  subst hw hb2
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  unfold k5_pay1
  rw [shapeCast_self, shapeCast_self]
  exact GcnLaws.denseTile_eq_dense (T := 5000) (M := 100000) (K := 128) (N := 128) _ tile_plain D hD hb X w1 b2 x0 _ _ _ p r s hx

theorem hz : (![0, 0] : Fin 2 → Nat) = fun _ => 0 := funext fun a => by fin_cases a <;> rfl

/-- The printed index maps, decided over the grid: the activation and result tiles move together down the rows; the
    weight and the bias row stay at block (0, 0). -/
theorem idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 19 ∧ win5_3.index t (1 : Fin 2) = 0 :=
  (by decide +kernel : ∀ t : Fin grid5.N, _)

/-- Every row block is some tile's. -/
theorem idx_onto : ∀ q0 : Fin 20, ∃ t : Fin cfg5.N, win5_3.index t = ![q0.val, 0] :=
  (by decide +kernel : ∀ q0 : Fin 20, ∃ t : Fin grid5.N, win5_3.index t = ![q0.val, 0])

section
variable (V : (c : Dev nD) → (b : Ref sig .tc) → Buf (Elt Ideal) ((c : Thread nD τ).loc b))

/-- The weight block at any tile is the whole weight matrix. -/
theorem blk1 (c : Dev nD) (t : Fin cfg5.N) : (iblk5 V c 1 t : S128x128.Idx → EReal) = (V c main_arg8 : S128x128.Idx → EReal) := by
  obtain ⟨e0, e1, e2, e3, e4, e5, e6, e7⟩ := idx_facts t
  funext y
  show V c main_arg8 (((cfg5.win 1).blk t).view.emb y) = V c main_arg8 y
  refine congrArg _ (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- The bias block at any tile is the whole bias row. -/
theorem blk2 (c : Dev nD) (t : Fin cfg5.N) : (iblk5 V c 2 t : S1x128.Idx → EReal) = (V c main_v32 : S1x128.Idx → EReal) := by
  obtain ⟨e0, e1, e2, e3, e4, e5, e6, e7⟩ := idx_facts t
  funext y
  show V c main_v32 (((cfg5.win 2).blk t).view.emb y) = V c main_v32 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The whole layer of the arrays the call is entered with. -/
abbrev layer (D : DotDims S100000x128 S128x128 S100000x128) (hb : S1x128.BroadcastsInDim S100000x128 (![0, 1] : Fin 2 → Fin 2))
    (c : Dev nD) : S100000x128.Idx → EReal :=
  GcnLaws.dense (M := 100000) (K := 128) (N := 128) D hb (V c main_v31) (V c main_arg8) (V c main_v32)

/-- WHAT TILE t WRITES BACK is block t of the whole layer. -/
theorem flushed (D : DotDims S100000x128 S128x128 S100000x128) (hD : PlainDot.IsPlain (M := 100000) (K := 128) (N := 128) D)
    (hb : S1x128.BroadcastsInDim S100000x128 (![0, 1] : Fin 2 → Fin 2)) (c : Dev nD) (t : Fin cfg5.N) :
    (dat5 V c).flushed 3 t = ((cfg5.win 3).blk t).view.read (Elt Ideal) (layer V D hb c) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine tile_eq D hD hb (V c main_v31) (V c main_arg8) (V c main_v32) (iblk5 V c 0 t) (iblk5 V c 1 t) (iblk5 V c 2 t)
    (blk1 V c t) (blk2 V c t) j (((cfg5.win 3).blk t).view.emb j) ?_ ?_
  · show win5_3.index t (1 : Fin 2) * 128 + 1 * (j 1).val = (j 1).val
    omega
  · intro k
    show V c main_v31 (((cfg5.win 0).blk t).view.emb (ix2 (⟨(j 0).val, (j 0).isLt⟩ : Fin 5000) k)) = V c main_v31 _
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega

/-- An index of the result is in tile t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v33).slice (win5_3.rect t)).set ↔ _
  rw [View.set_slice_whole, Rect.mem_set_unit]
  exact Iff.rfl

/-- The tiles cover the result: row r is in tile r / 5000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE RESULT ARRAY after the call: the whole layer of the arrays it was entered with. -/
theorem final (D : DotDims S100000x128 S128x128 S100000x128) (hD : PlainDot.IsPlain (M := 100000) (K := 128) (N := 128) D)
    (hb : S1x128.BroadcastsInDim S100000x128 (![0, 1] : Fin 2 → Fin 2)) (c : Dev nD) :
    (dat5 V c).arrAt 3 cfg5.N = layer V D hb c :=
  (dat5 V c).arrAt_eq_of_cover 3 (layer V D hb c) (fun t _ => flushed V D hD hb c t) cover

end

end Cert.KernelIdeal.Dense5

end
-- ==== Proof.Scale1.lean ====
/-
  Pallas call 1: the edge scaling of the first layer, over 200 tiles of 8000 edges.
  Tile t reads rows 8000·t … 8000·t + 7999 of the gathered messages (all 128 lanes) and the same rows of the edge-weight
  column, and writes those rows of the result: each message row times its edge's weight. By the scaling law each written
  row is that row of the whole scaling, so — the 200 tiles covering all 1600000 edges — the result array ends as the
  whole scaling of the arrays the call was entered with. Stated at any contents `V` the call may be entered with and for
  any broadcast witness `hb` the whole scaling is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Scale1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- What a tile stores, at entry j of the tile, is entry i of the whole scaling, when i is j's lane, the tile's message
    entry j is the whole array's entry i, and the tile's weight at row (j 0) is the whole column's at row (i 0). -/
theorem tile_eq (hb : S1600000x1.BroadcastsInDim S1600000x128 (![0, 1] : Fin 2 → Fin 2))
    (Gm : FVec Ideal S1600000x128 .f32) (Col : FVec Ideal S1600000x1 .f32)
    (g : Vec Ideal S8000x128 .f32) (col : Vec Ideal S8000x1 .f32)
    (j : S8000x128.Idx) (i : S1600000x128.Idx) (h1 : (i 1).val = (j 1).val) (hg : g j = Gm i)
    (hc : col (ix2 (⟨(j 0).val, (j 0).isLt⟩ : Fin 8000) (0 : Fin 1)) = Col (ix2 (⟨(i 0).val, (i 0).isLt⟩ : Fin 1600000) (0 : Fin 1))) :
    k1_pay1 g col j = GcnLaws.scale (E := 1600000) (N := 128) hb Gm Col i := by
  obtain ⟨p, q, rfl⟩ : ∃ (p : Fin 8000) (q : Fin 128), j = ix2 p q := ⟨j 0, j 1, eq_ix2 j⟩
  obtain ⟨e, s, rfl⟩ : ∃ (e : Fin 1600000) (s : Fin 128), i = ix2 e s := ⟨i 0, i 1, eq_ix2 i⟩
  obtain rfl : s = q := Fin.ext h1
  unfold k1_pay1
  rw [shapeCast_self, shapeCast_self]
  exact GcnLaws.scaleTile_eq_scale (T := 8000) (E := 1600000) (N := 128) hb Gm Col g col _ p e s hg hc

theorem hz : (![0, 0] : Fin 2 → Nat) = fun _ => 0 := funext fun a => by fin_cases a <;> rfl

/-- The printed index maps, decided over the grid: the three tiles move together down the rows, tile t at row block t. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The whole scaling of the arrays the call is entered with. -/
abbrev scaled (hb : S1600000x1.BroadcastsInDim S1600000x128 (![0, 1] : Fin 2 → Fin 2)) (c : Dev nD) : S1600000x128.Idx → EReal :=
  GcnLaws.scale (E := 1600000) (N := 128) hb (V c main_v8) (V c main_v9)

/-- WHAT TILE t WRITES BACK is block t of the whole scaling. -/
theorem flushed (hb : S1600000x1.BroadcastsInDim S1600000x128 (![0, 1] : Fin 2 → Fin 2)) (c : Dev nD) (t : Fin cfg1.N) :
    (dat1 V c).flushed 2 t = ((cfg1.win 2).blk t).view.read (Elt Ideal) (scaled V hb c) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e0, e1, e2, e3, e4, e5⟩ := idx_facts t
  funext j
  refine tile_eq hb (V c main_v8) (V c main_v9) (iblk1 V c 0 t) (iblk1 V c 1 t) j (((cfg1.win 2).blk t).view.emb j) ?_ ?_ ?_
  · show win1_2.index t (1 : Fin 2) * 128 + 1 * (j 1).val = (j 1).val
    omega
  · show V c main_v8 (((cfg1.win 0).blk t).view.emb j) = V c main_v8 (((cfg1.win 2).blk t).view.emb j)
    refine congrArg _ (funext fun a => Fin.ext ?_)
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  · show V c main_v9 (((cfg1.win 1).blk t).view.emb (ix2 (⟨(j 0).val, (j 0).isLt⟩ : Fin 8000) (0 : Fin 1))) = V c main_v9 _
    refine congrArg _ (funext fun a => Fin.ext ?_)
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega

/-- An index of the result is in tile t's block iff each coordinate is in the block's range on its axis. -/
theorem mem_blk (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v10).slice (win1_2.rect t)).set ↔ _
  rw [View.set_slice_whole, Rect.mem_set_unit]
  exact Iff.rfl

/-- The tiles cover the result: edge e is in tile e / 8000. -/
theorem cover (i : S1600000x128.Idx) : ∃ t : Fin cfg1.N, (cfg1.win 2).flush t = true ∧ i ∈ ((cfg1.win 2).blk t).view.set := by
  have hi0 : (i 0).val < 1600000 := (i 0).isLt
  have hi1 : (i 1).val < 128 := (i 1).isLt
  have ht : (i 0).val / 8000 < 200 := by omega
  obtain ⟨e0, e1, e2, e3, e4, e5⟩ := idx_facts ⟨(i 0).val / 8000, ht⟩
  have q0 : win1_2.index ⟨(i 0).val / 8000, ht⟩ (0 : Fin 2) = (i 0).val / 8000 := e4
  refine ⟨⟨(i 0).val / 8000, ht⟩, flush1_2 _, ?_⟩
  rw [mem_blk]
  intro a
  match a with
  | ⟨0, _⟩ => show win1_2.index ⟨(i 0).val / 8000, ht⟩ (0 : Fin 2) * 8000 ≤ (i 0).val ∧ (i 0).val < win1_2.index ⟨(i 0).val / 8000, ht⟩ (0 : Fin 2) * 8000 + 8000; omega
  | ⟨1, _⟩ => show win1_2.index ⟨(i 0).val / 8000, ht⟩ (1 : Fin 2) * 128 ≤ (i 1).val ∧ (i 1).val < win1_2.index ⟨(i 0).val / 8000, ht⟩ (1 : Fin 2) * 128 + 128; omega

/-- THE RESULT ARRAY after the call: the whole scaling of the arrays it was entered with. -/
theorem final (hb : S1600000x1.BroadcastsInDim S1600000x128 (![0, 1] : Fin 2 → Fin 2)) (c : Dev nD) :
    (dat1 V c).arrAt 2 cfg1.N = scaled V hb c :=
  (dat1 V c).arrAt_eq_of_cover 2 (scaled V hb c) (fun t _ => flushed V hb c t) cover

end

end Cert.KernelIdeal.Scale1

end
-- ==== Proof.Scale3.lean ====
/-
  Pallas call 3: the edge scaling of the second layer, over 200 tiles of 8000 edges.
  Tile t reads rows 8000·t … 8000·t + 7999 of the gathered messages (all 128 lanes) and the same rows of the edge-weight
  column, and writes those rows of the result: each message row times its edge's weight. By the scaling law each written
  row is that row of the whole scaling, so — the 200 tiles covering all 1600000 edges — the result array ends as the
  whole scaling of the arrays the call was entered with. Stated at any contents `V` the call may be entered with and for
  any broadcast witness `hb` the whole scaling is spelt with.
-/
import proofs.«179834_j2774548873594_1_alg».proof.Proof.Gen.KernelIdeal.Frame
import proofs.«179834_j2774548873594_1_alg».proof.Proof.LibGcnLaws
import Idealize.ShloMosaic.Lib.Pipeline.Value

set_option maxRecDepth 16384

noncomputable section

namespace Cert.KernelIdeal.Scale3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- What a tile stores, at entry j of the tile, is entry i of the whole scaling, when i is j's lane, the tile's message
    entry j is the whole array's entry i, and the tile's weight at row (j 0) is the whole column's at row (i 0). -/
theorem tile_eq (hb : S1600000x1.BroadcastsInDim S1600000x128 (![0, 1] : Fin 2 → Fin 2))
    (Gm : FVec Ideal S1600000x128 .f32) (Col : FVec Ideal S1600000x1 .f32)
    (g : Vec Ideal S8000x128 .f32) (col : Vec Ideal S8000x1 .f32)
    (j : S8000x128.Idx) (i : S1600000x128.Idx) (h1 : (i 1).val = (j 1).val) (hg : g j = Gm i)
    (hc : col (ix2 (⟨(j 0).val, (j 0).isLt⟩ : Fin 8000) (0 : Fin 1)) = Col (ix2 (⟨(i 0).val, (i 0).isLt⟩ : Fin 1600000) (0 : Fin 1))) :
    k3_pay1 g col j = GcnLaws.scale (E := 1600000) (N := 128) hb Gm Col i := by
  obtain ⟨p, q, rfl⟩ : ∃ (p : Fin 8000) (q : Fin 128), j = ix2 p q := ⟨j 0, j 1, eq_ix2 j⟩
  obtain ⟨e, s, rfl⟩ : ∃ (e : Fin 1600000) (s : Fin 128), i = ix2 e s := ⟨i 0, i 1, eq_ix2 i⟩
  obtain rfl : s = q := Fin.ext h1
  unfold k3_pay1
  rw [shapeCast_self, shapeCast_self]
  exact GcnLaws.scaleTile_eq_scale (T := 8000) (E := 1600000) (N := 128) hb Gm Col g col _ p e s hg hc

theorem hz : (![0, 0] : Fin 2 → Nat) = fun _ => 0 := funext fun a => by fin_cases a <;> rfl

/-- The printed index maps, decided over the grid: the three tiles move together down the rows, tile t at row block t. -/
theorem idx_facts : ∀ t : Fin cfg3.N, win3_0.index t (0 : Fin 2) = win3_2.index t (0 : Fin 2)
    ∧ win3_0.index t (1 : Fin 2) = 0
    ∧ win3_1.index t (0 : Fin 2) = win3_2.index t (0 : Fin 2) ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- The whole scaling of the arrays the call is entered with. -/
abbrev scaled (hb : S1600000x1.BroadcastsInDim S1600000x128 (![0, 1] : Fin 2 → Fin 2)) (c : Dev nD) : S1600000x128.Idx → EReal :=
  GcnLaws.scale (E := 1600000) (N := 128) hb (V c main_v24) (V c main_v25)

/-- WHAT TILE t WRITES BACK is block t of the whole scaling. -/
theorem flushed (hb : S1600000x1.BroadcastsInDim S1600000x128 (![0, 1] : Fin 2 → Fin 2)) (c : Dev nD) (t : Fin cfg3.N) :
    (dat3 V c).flushed 2 t = ((cfg3.win 2).blk t).view.read (Elt Ideal) (scaled V hb c) := by
  show (cfg3.win 2).cut (grid3.coords t) ((dat3 V c).after 2 t) = _
  rw [after3_2]
  unfold out3_2
  rw [View.canon_unit_zero hz]
  simp only [View.ld_unit_zero (S := S8000x128) hz, View.ld_unit_zero (S := S8000x1) hz]
  obtain ⟨e0, e1, e2, e3, e4, e5⟩ := idx_facts t
  funext j
  refine tile_eq hb (V c main_v24) (V c main_v25) (iblk3 V c 0 t) (iblk3 V c 1 t) j (((cfg3.win 2).blk t).view.emb j) ?_ ?_ ?_
  · show win3_2.index t (1 : Fin 2) * 128 + 1 * (j 1).val = (j 1).val
    omega
  · show V c main_v24 (((cfg3.win 0).blk t).view.emb j) = V c main_v24 (((cfg3.win 2).blk t).view.emb j)
    refine congrArg _ (funext fun a => Fin.ext ?_)
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 128 + 1 * (j 1).val = win3_2.index t (1 : Fin 2) * 128 + 1 * (j 1).val; omega
  · show V c main_v25 (((cfg3.win 1).blk t).view.emb (ix2 (⟨(j 0).val, (j 0).isLt⟩ : Fin 8000) (0 : Fin 1))) = V c main_v25 _
    refine congrArg _ (funext fun a => Fin.ext ?_)
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 1 + 1 * 0 = 0; omega

/-- An index of the result is in tile t's block iff each coordinate is in the block's range on its axis. -/
theorem mem_blk (t : Fin cfg3.N) (i : S1600000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v26).slice (win3_2.rect t)).set ↔ _
  rw [View.set_slice_whole, Rect.mem_set_unit]
  exact Iff.rfl

/-- The tiles cover the result: edge e is in tile e / 8000. -/
theorem cover (i : S1600000x128.Idx) : ∃ t : Fin cfg3.N, (cfg3.win 2).flush t = true ∧ i ∈ ((cfg3.win 2).blk t).view.set := by
  have hi0 : (i 0).val < 1600000 := (i 0).isLt
  have hi1 : (i 1).val < 128 := (i 1).isLt
  have ht : (i 0).val / 8000 < 200 := by omega
  obtain ⟨e0, e1, e2, e3, e4, e5⟩ := idx_facts ⟨(i 0).val / 8000, ht⟩
  have q0 : win3_2.index ⟨(i 0).val / 8000, ht⟩ (0 : Fin 2) = (i 0).val / 8000 := e4
  refine ⟨⟨(i 0).val / 8000, ht⟩, flush3_2 _, ?_⟩
  rw [mem_blk]
  intro a
  match a with
  | ⟨0, _⟩ => show win3_2.index ⟨(i 0).val / 8000, ht⟩ (0 : Fin 2) * 8000 ≤ (i 0).val ∧ (i 0).val < win3_2.index ⟨(i 0).val / 8000, ht⟩ (0 : Fin 2) * 8000 + 8000; omega
  | ⟨1, _⟩ => show win3_2.index ⟨(i 0).val / 8000, ht⟩ (1 : Fin 2) * 128 ≤ (i 1).val ∧ (i 1).val < win3_2.index ⟨(i 0).val / 8000, ht⟩ (1 : Fin 2) * 128 + 128; omega

/-- THE RESULT ARRAY after the call: the whole scaling of the arrays it was entered with. -/
theorem final (hb : S1600000x1.BroadcastsInDim S1600000x128 (![0, 1] : Fin 2 → Fin 2)) (c : Dev nD) :
    (dat3 V c).arrAt 2 cfg3.N = scaled V hb c :=
  (dat3 V c).arrAt_eq_of_cover 2 (scaled V hb c) (fun t _ => flushed V hb c t) cover

end

end Cert.KernelIdeal.Scale3

end
-- ==== Proof.KernelFold.lean ====
/-
  The contents of the twelve segment boundaries of the idealized kernel's program, read at the buffers the data flows
  through, as functions of the launch arrays.

  The program is two graph-convolution layers and a two-layer projection head. A convolution layer is: a dense layer
  (pallas call), a gather of its rows at the source nodes (host; negative node numbers are first shifted by the node count),
  a scaling of each gathered row by its edge's weight (pallas call, over the weight recast as a column), and a sum of the
  scaled rows into the destination nodes starting from zeros (host). Between the two layers the host rectifies; the head is a
  dense layer with its rectifier fused (pallas call) and a last dense layer (pallas call). Before each dense call the host
  recasts the bias vector as a one-row matrix.

  Each pallas call leaves its result array at the whole-array layer of what it was entered with (the six per-call modules);
  each host stretch is read operation by operation; every other buffer passes through a segment unchanged. Folding the twelve
  segments gives the two results: the head's output and the second layer's embeddings. The dense layers are spelt with any
  plain-product records and broadcast witnesses, to be instantiated with the reference's.
-/
import proofs.«179834_j2774548873594_1_alg».proof.Proof.Dense0
import proofs.«179834_j2774548873594_1_alg».proof.Proof.Dense2
import proofs.«179834_j2774548873594_1_alg».proof.Proof.Dense4
import proofs.«179834_j2774548873594_1_alg».proof.Proof.Dense5
import proofs.«179834_j2774548873594_1_alg».proof.Proof.Scale1
import proofs.«179834_j2774548873594_1_alg».proof.Proof.Scale3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-! ## The pieces of the computation, over whole arrays -/

/-- A bias vector recast as a one-row matrix. -/
def row (b : FVec Ideal S128 .f32) : FVec Ideal S1x128 .f32 :=
  shapeCast S1x128 b shapeCasts_S128_S1x128
/-- The edge weights recast as a column. -/
def col (w : FVec Ideal S1600000 .f32) : FVec Ideal S1600000x1 .f32 :=
  shapeCast S1600000x1 w shapeCasts_S1600000_S1600000x1
/-- The zero array the sums start from, and the rectifier compares with. -/
def zeros : FVec Ideal S100000x128 .f32 :=
  broadcastInDim S100000x128 ![] bcast_S_S100000x128 (constant (F := Ideal) S_ .f32 0x00000000#32)
/-- The source nodes as gather indices: a negative node number shifted by the node count, as a column. -/
def srcIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The destination nodes as scatter indices: as a column. -/
def dstIdx (d : IVec S1600000 32) : IVec S1600000x1 32 :=
  broadcastInDim S1600000x1 ![0] bcast_S1600000_S1600000x1_0 d

/-- The first layer's dense part. -/
def lin1 (D1 : DotDims S100000x256 S256x128 S100000x128) (hb : S1x128.BroadcastsInDim S100000x128 (![0, 1] : Fin 2 → Fin 2))
    (x0 : FVec Ideal S100000x256 .f32) (x2 : FVec Ideal S256x128 .f32) (x3 : FVec Ideal S128 .f32) : FVec Ideal S100000x128 .f32 :=
  GcnLaws.dense (M := 100000) (K := 256) (N := 128) D1 hb x0 x2 (row x3)
/-- Its rows gathered at the source nodes. -/
def msg1 (D1 : DotDims S100000x256 S256x128 S100000x128) (hb : S1x128.BroadcastsInDim S100000x128 (![0, 1] : Fin 2 → Fin 2))
    (x0 : FVec Ideal S100000x256 .f32) (x2 : FVec Ideal S256x128 .f32) (x3 : FVec Ideal S128 .f32) (x10 : IVec S1600000 32) : FVec Ideal S1600000x128 .f32 :=
  Host.gather gather_S100000x128_S1600000x1_S1600000x128_1_0_n_n_0_1_1128 (lin1 D1 hb x0 x2 x3) (srcIdx x10)
/-- Each gathered row scaled by its edge's weight. -/
def sc1 (D1 : DotDims S100000x256 S256x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x10 : IVec S1600000 32) : FVec Ideal S1600000x128 .f32 :=
  GcnLaws.scale (E := 1600000) (N := 128) hc (msg1 D1 hb x0 x2 x3 x10) (col x1)
/-- The scaled rows summed into the destination nodes, rectified: the hidden features. -/
def hid (D1 : DotDims S100000x256 S256x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x10 : IVec S1600000 32) (x11 : IVec S1600000 32) : FVec Ideal S100000x128 .f32 :=
  maximumf (Host.scatterAdd scatter_S100000x128_S1600000x1_S1600000x128_1_0_0_1 zeros (dstIdx x11) (sc1 D1 hb hc x0 x1 x2 x3 x10)) zeros
/-- The second layer's dense part. -/
def lin2 (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x10 : IVec S1600000 32) (x11 : IVec S1600000 32) : FVec Ideal S100000x128 .f32 :=
  GcnLaws.dense (M := 100000) (K := 128) (N := 128) D2 hb (hid D1 hb hc x0 x1 x2 x3 x10 x11) x4 (row x5)
/-- Its rows gathered at the source nodes. -/
def msg2 (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x10 : IVec S1600000 32) (x11 : IVec S1600000 32) : FVec Ideal S1600000x128 .f32 :=
  Host.gather gather_S100000x128_S1600000x1_S1600000x128_1_0_n_n_0_1_1128 (lin2 D1 D2 hb hc x0 x1 x2 x3 x4 x5 x10 x11) (srcIdx x10)
/-- Each gathered row scaled by its edge's weight. -/
def sc2 (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x10 : IVec S1600000 32) (x11 : IVec S1600000 32) : FVec Ideal S1600000x128 .f32 :=
  GcnLaws.scale (E := 1600000) (N := 128) hc (msg2 D1 D2 hb hc x0 x1 x2 x3 x4 x5 x10 x11) (col x1)
/-- The second layer's result: the embeddings (the program's second result). -/
def emb (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x10 : IVec S1600000 32) (x11 : IVec S1600000 32) : FVec Ideal S100000x128 .f32 :=
  Host.scatterAdd scatter_S100000x128_S1600000x1_S1600000x128_1_0_0_1 zeros (dstIdx x11) (sc2 D1 D2 hb hc x0 x1 x2 x3 x4 x5 x10 x11)
/-- The head's first layer, rectified. -/
def proj (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x6 : FVec Ideal S128x128 .f32) (x7 : FVec Ideal S128 .f32) (x10 : IVec S1600000 32) (x11 : IVec S1600000 32) : FVec Ideal S100000x128 .f32 :=
  GcnLaws.relu S100000x128 h0 (GcnLaws.dense (M := 100000) (K := 128) (N := 128) D2 hb (emb D1 D2 hb hc x0 x1 x2 x3 x4 x5 x10 x11) x6 (row x7))
/-- The head's output (the program's first result). -/
def out (D1 : DotDims S100000x256 S256x128 S100000x128) (D2 : DotDims S100000x128 S128x128 S100000x128) (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank))
    (x0 : FVec Ideal S100000x256 .f32) (x1 : FVec Ideal S1600000 .f32) (x2 : FVec Ideal S256x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : IVec S1600000 32) (x11 : IVec S1600000 32) : FVec Ideal S100000x128 .f32 :=
  GcnLaws.dense (M := 100000) (K := 128) (N := 128) D2 hb (proj D1 D2 hb hc h0 x0 x1 x2 x3 x4 x5 x6 x7 x10 x11) x8 (row x9)

/-! ## The argument arrays pass through every segment up to where they are read -/

section
variable (m : (ℓ : Loc nD τ sig) → Buf (Elt Ideal) ℓ) (ρ : Dev nD → PrngReg)

theorem arg0_W0 (c : Dev nD) : W0 m ρ c (Proc.devRef .tc main_arg0) = (m ((c : Thread nD τ).loc main_arg0)) := rfl
theorem arg1_W0 (c : Dev nD) : W0 m ρ c (Proc.devRef .tc main_arg1) = (m ((c : Thread nD τ).loc main_arg1)) := rfl
theorem arg2_W0 (c : Dev nD) : W0 m ρ c (Proc.devRef .tc main_arg2) = (m ((c : Thread nD τ).loc main_arg2)) := rfl
theorem arg4_W0 (c : Dev nD) : W0 m ρ c (Proc.devRef .tc main_arg4) = (m ((c : Thread nD τ).loc main_arg4)) := rfl
theorem arg5_W0 (c : Dev nD) : W0 m ρ c (Proc.devRef .tc main_arg5) = (m ((c : Thread nD τ).loc main_arg5)) := rfl
theorem arg6_W0 (c : Dev nD) : W0 m ρ c (Proc.devRef .tc main_arg6) = (m ((c : Thread nD τ).loc main_arg6)) := rfl
theorem arg7_W0 (c : Dev nD) : W0 m ρ c (Proc.devRef .tc main_arg7) = (m ((c : Thread nD τ).loc main_arg7)) := rfl
theorem arg8_W0 (c : Dev nD) : W0 m ρ c (Proc.devRef .tc main_arg8) = (m ((c : Thread nD τ).loc main_arg8)) := rfl
theorem arg9_W0 (c : Dev nD) : W0 m ρ c (Proc.devRef .tc main_arg9) = (m ((c : Thread nD τ).loc main_arg9)) := rfl
theorem arg10_W0 (c : Dev nD) : W0 m ρ c (Proc.devRef .tc main_arg10) = (m ((c : Thread nD τ).loc main_arg10)) := rfl
theorem arg11_W0 (c : Dev nD) : W0 m ρ c (Proc.devRef .tc main_arg11) = (m ((c : Thread nD τ).loc main_arg11)) := rfl
theorem arg0_W1 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results
theorem arg1_W1 (c : Dev nD) : W1 m ρ c (Proc.devRef .tc main_arg1) = (m ((c : Thread nD τ).loc main_arg1)) := by
  show StableHlo.after hostOps0 (W0 m ρ c) (Proc.devRef .tc main_arg1) = _
  dsimp only [hostOps0]
  after_results
theorem arg1_W2 (c : Dev nD) : W2 m ρ c (Proc.devRef .tc main_arg1) = (m ((c : Thread nD τ).loc main_arg1)) :=
  (W2_of_ne m ρ c main_arg1 (by decide)).trans (arg1_W1 m ρ c)
theorem arg1_W3 (c : Dev nD) : W3 m ρ c (Proc.devRef .tc main_arg1) = (m ((c : Thread nD τ).loc main_arg1)) := by
  show StableHlo.after hostOps1 (W2 m ρ c) (Proc.devRef .tc main_arg1) = _
  dsimp only [hostOps1]
  after_results
  exact arg1_W2 m ρ c
theorem arg1_W4 (c : Dev nD) : W4 m ρ c (Proc.devRef .tc main_arg1) = (m ((c : Thread nD τ).loc main_arg1)) :=
  (W4_of_ne m ρ c main_arg1 (by decide)).trans (arg1_W3 m ρ c)
theorem arg1_W5 (c : Dev nD) : W5 m ρ c (Proc.devRef .tc main_arg1) = (m ((c : Thread nD τ).loc main_arg1)) := by
  show StableHlo.after hostOps2 (W4 m ρ c) (Proc.devRef .tc main_arg1) = _
  dsimp only [hostOps2]
  after_results
  exact arg1_W4 m ρ c
theorem arg1_W6 (c : Dev nD) : W6 m ρ c (Proc.devRef .tc main_arg1) = (m ((c : Thread nD τ).loc main_arg1)) :=
  (W6_of_ne m ρ c main_arg1 (by decide)).trans (arg1_W5 m ρ c)
theorem arg2_W1 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results
theorem arg4_W1 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results
theorem arg4_W2 (c : Dev nD) : W2 m ρ c (Proc.devRef .tc main_arg4) = (m ((c : Thread nD τ).loc main_arg4)) :=
  (W2_of_ne m ρ c main_arg4 (by decide)).trans (arg4_W1 m ρ c)
theorem arg4_W3 (c : Dev nD) : W3 m ρ c (Proc.devRef .tc main_arg4) = (m ((c : Thread nD τ).loc main_arg4)) := by
  show StableHlo.after hostOps1 (W2 m ρ c) (Proc.devRef .tc main_arg4) = _
  dsimp only [hostOps1]
  after_results
  exact arg4_W2 m ρ c
theorem arg4_W4 (c : Dev nD) : W4 m ρ c (Proc.devRef .tc main_arg4) = (m ((c : Thread nD τ).loc main_arg4)) :=
  (W4_of_ne m ρ c main_arg4 (by decide)).trans (arg4_W3 m ρ c)
theorem arg4_W5 (c : Dev nD) : W5 m ρ c (Proc.devRef .tc main_arg4) = (m ((c : Thread nD τ).loc main_arg4)) := by
  show StableHlo.after hostOps2 (W4 m ρ c) (Proc.devRef .tc main_arg4) = _
  dsimp only [hostOps2]
  after_results
  exact arg4_W4 m ρ c
theorem arg5_W1 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results
theorem arg5_W2 (c : Dev nD) : W2 m ρ c (Proc.devRef .tc main_arg5) = (m ((c : Thread nD τ).loc main_arg5)) :=
  (W2_of_ne m ρ c main_arg5 (by decide)).trans (arg5_W1 m ρ c)
theorem arg5_W3 (c : Dev nD) : W3 m ρ c (Proc.devRef .tc main_arg5) = (m ((c : Thread nD τ).loc main_arg5)) := by
  show StableHlo.after hostOps1 (W2 m ρ c) (Proc.devRef .tc main_arg5) = _
  dsimp only [hostOps1]
  after_results
  exact arg5_W2 m ρ c
theorem arg5_W4 (c : Dev nD) : W4 m ρ c (Proc.devRef .tc main_arg5) = (m ((c : Thread nD τ).loc main_arg5)) :=
  (W4_of_ne m ρ c main_arg5 (by decide)).trans (arg5_W3 m ρ c)
theorem arg6_W1 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results
theorem arg6_W2 (c : Dev nD) : W2 m ρ c (Proc.devRef .tc main_arg6) = (m ((c : Thread nD τ).loc main_arg6)) :=
  (W2_of_ne m ρ c main_arg6 (by decide)).trans (arg6_W1 m ρ c)
theorem arg6_W3 (c : Dev nD) : W3 m ρ c (Proc.devRef .tc main_arg6) = (m ((c : Thread nD τ).loc main_arg6)) := by
  show StableHlo.after hostOps1 (W2 m ρ c) (Proc.devRef .tc main_arg6) = _
  dsimp only [hostOps1]
  after_results
  exact arg6_W2 m ρ c
theorem arg6_W4 (c : Dev nD) : W4 m ρ c (Proc.devRef .tc main_arg6) = (m ((c : Thread nD τ).loc main_arg6)) :=
  (W4_of_ne m ρ c main_arg6 (by decide)).trans (arg6_W3 m ρ c)
theorem arg6_W5 (c : Dev nD) : W5 m ρ c (Proc.devRef .tc main_arg6) = (m ((c : Thread nD τ).loc main_arg6)) := by
  show StableHlo.after hostOps2 (W4 m ρ c) (Proc.devRef .tc main_arg6) = _
  dsimp only [hostOps2]
  after_results
  exact arg6_W4 m ρ c
theorem arg6_W6 (c : Dev nD) : W6 m ρ c (Proc.devRef .tc main_arg6) = (m ((c : Thread nD τ).loc main_arg6)) :=
  (W6_of_ne m ρ c main_arg6 (by decide)).trans (arg6_W5 m ρ c)
theorem arg6_W7 (c : Dev nD) : W7 m ρ c (Proc.devRef .tc main_arg6) = (m ((c : Thread nD τ).loc main_arg6)) := by
  show StableHlo.after hostOps3 (W6 m ρ c) (Proc.devRef .tc main_arg6) = _
  dsimp only [hostOps3]
  after_results
  exact arg6_W6 m ρ c
theorem arg6_W8 (c : Dev nD) : W8 m ρ c (Proc.devRef .tc main_arg6) = (m ((c : Thread nD τ).loc main_arg6)) :=
  (W8_of_ne m ρ c main_arg6 (by decide)).trans (arg6_W7 m ρ c)
theorem arg6_W9 (c : Dev nD) : W9 m ρ c (Proc.devRef .tc main_arg6) = (m ((c : Thread nD τ).loc main_arg6)) := by
  show StableHlo.after hostOps4 (W8 m ρ c) (Proc.devRef .tc main_arg6) = _
  dsimp only [hostOps4]
  after_results
  exact arg6_W8 m ρ c
theorem arg7_W1 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results
theorem arg7_W2 (c : Dev nD) : W2 m ρ c (Proc.devRef .tc main_arg7) = (m ((c : Thread nD τ).loc main_arg7)) :=
  (W2_of_ne m ρ c main_arg7 (by decide)).trans (arg7_W1 m ρ c)
theorem arg7_W3 (c : Dev nD) : W3 m ρ c (Proc.devRef .tc main_arg7) = (m ((c : Thread nD τ).loc main_arg7)) := by
  show StableHlo.after hostOps1 (W2 m ρ c) (Proc.devRef .tc main_arg7) = _
  dsimp only [hostOps1]
  after_results
  exact arg7_W2 m ρ c
theorem arg7_W4 (c : Dev nD) : W4 m ρ c (Proc.devRef .tc main_arg7) = (m ((c : Thread nD τ).loc main_arg7)) :=
  (W4_of_ne m ρ c main_arg7 (by decide)).trans (arg7_W3 m ρ c)
theorem arg7_W5 (c : Dev nD) : W5 m ρ c (Proc.devRef .tc main_arg7) = (m ((c : Thread nD τ).loc main_arg7)) := by
  show StableHlo.after hostOps2 (W4 m ρ c) (Proc.devRef .tc main_arg7) = _
  dsimp only [hostOps2]
  after_results
  exact arg7_W4 m ρ c
theorem arg7_W6 (c : Dev nD) : W6 m ρ c (Proc.devRef .tc main_arg7) = (m ((c : Thread nD τ).loc main_arg7)) :=
  (W6_of_ne m ρ c main_arg7 (by decide)).trans (arg7_W5 m ρ c)
theorem arg7_W7 (c : Dev nD) : W7 m ρ c (Proc.devRef .tc main_arg7) = (m ((c : Thread nD τ).loc main_arg7)) := by
  show StableHlo.after hostOps3 (W6 m ρ c) (Proc.devRef .tc main_arg7) = _
  dsimp only [hostOps3]
  after_results
  exact arg7_W6 m ρ c
theorem arg7_W8 (c : Dev nD) : W8 m ρ c (Proc.devRef .tc main_arg7) = (m ((c : Thread nD τ).loc main_arg7)) :=
  (W8_of_ne m ρ c main_arg7 (by decide)).trans (arg7_W7 m ρ c)
theorem arg8_W1 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results
theorem arg8_W2 (c : Dev nD) : W2 m ρ c (Proc.devRef .tc main_arg8) = (m ((c : Thread nD τ).loc main_arg8)) :=
  (W2_of_ne m ρ c main_arg8 (by decide)).trans (arg8_W1 m ρ c)
theorem arg8_W3 (c : Dev nD) : W3 m ρ c (Proc.devRef .tc main_arg8) = (m ((c : Thread nD τ).loc main_arg8)) := by
  show StableHlo.after hostOps1 (W2 m ρ c) (Proc.devRef .tc main_arg8) = _
  dsimp only [hostOps1]
  after_results
  exact arg8_W2 m ρ c
theorem arg8_W4 (c : Dev nD) : W4 m ρ c (Proc.devRef .tc main_arg8) = (m ((c : Thread nD τ).loc main_arg8)) :=
  (W4_of_ne m ρ c main_arg8 (by decide)).trans (arg8_W3 m ρ c)
theorem arg8_W5 (c : Dev nD) : W5 m ρ c (Proc.devRef .tc main_arg8) = (m ((c : Thread nD τ).loc main_arg8)) := by
  show StableHlo.after hostOps2 (W4 m ρ c) (Proc.devRef .tc main_arg8) = _
  dsimp only [hostOps2]
  after_results
  exact arg8_W4 m ρ c
theorem arg8_W6 (c : Dev nD) : W6 m ρ c (Proc.devRef .tc main_arg8) = (m ((c : Thread nD τ).loc main_arg8)) :=
  (W6_of_ne m ρ c main_arg8 (by decide)).trans (arg8_W5 m ρ c)
theorem arg8_W7 (c : Dev nD) : W7 m ρ c (Proc.devRef .tc main_arg8) = (m ((c : Thread nD τ).loc main_arg8)) := by
  show StableHlo.after hostOps3 (W6 m ρ c) (Proc.devRef .tc main_arg8) = _
  dsimp only [hostOps3]
  after_results
  exact arg8_W6 m ρ c
theorem arg8_W8 (c : Dev nD) : W8 m ρ c (Proc.devRef .tc main_arg8) = (m ((c : Thread nD τ).loc main_arg8)) :=
  (W8_of_ne m ρ c main_arg8 (by decide)).trans (arg8_W7 m ρ c)
theorem arg8_W9 (c : Dev nD) : W9 m ρ c (Proc.devRef .tc main_arg8) = (m ((c : Thread nD τ).loc main_arg8)) := by
  show StableHlo.after hostOps4 (W8 m ρ c) (Proc.devRef .tc main_arg8) = _
  dsimp only [hostOps4]
  after_results
  exact arg8_W8 m ρ c
theorem arg8_W10 (c : Dev nD) : W10 m ρ c (Proc.devRef .tc main_arg8) = (m ((c : Thread nD τ).loc main_arg8)) :=
  (W10_of_ne m ρ c main_arg8 (by decide)).trans (arg8_W9 m ρ c)
theorem arg8_W11 (c : Dev nD) : W11 m ρ c (Proc.devRef .tc main_arg8) = (m ((c : Thread nD τ).loc main_arg8)) := by
  show StableHlo.after hostOps5 (W10 m ρ c) (Proc.devRef .tc main_arg8) = _
  dsimp only [hostOps5]
  after_results
  exact arg8_W10 m ρ c
theorem arg9_W1 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results
theorem arg9_W2 (c : Dev nD) : W2 m ρ c (Proc.devRef .tc main_arg9) = (m ((c : Thread nD τ).loc main_arg9)) :=
  (W2_of_ne m ρ c main_arg9 (by decide)).trans (arg9_W1 m ρ c)
theorem arg9_W3 (c : Dev nD) : W3 m ρ c (Proc.devRef .tc main_arg9) = (m ((c : Thread nD τ).loc main_arg9)) := by
  show StableHlo.after hostOps1 (W2 m ρ c) (Proc.devRef .tc main_arg9) = _
  dsimp only [hostOps1]
  after_results
  exact arg9_W2 m ρ c
theorem arg9_W4 (c : Dev nD) : W4 m ρ c (Proc.devRef .tc main_arg9) = (m ((c : Thread nD τ).loc main_arg9)) :=
  (W4_of_ne m ρ c main_arg9 (by decide)).trans (arg9_W3 m ρ c)
theorem arg9_W5 (c : Dev nD) : W5 m ρ c (Proc.devRef .tc main_arg9) = (m ((c : Thread nD τ).loc main_arg9)) := by
  show StableHlo.after hostOps2 (W4 m ρ c) (Proc.devRef .tc main_arg9) = _
  dsimp only [hostOps2]
  after_results
  exact arg9_W4 m ρ c
theorem arg9_W6 (c : Dev nD) : W6 m ρ c (Proc.devRef .tc main_arg9) = (m ((c : Thread nD τ).loc main_arg9)) :=
  (W6_of_ne m ρ c main_arg9 (by decide)).trans (arg9_W5 m ρ c)
theorem arg9_W7 (c : Dev nD) : W7 m ρ c (Proc.devRef .tc main_arg9) = (m ((c : Thread nD τ).loc main_arg9)) := by
  show StableHlo.after hostOps3 (W6 m ρ c) (Proc.devRef .tc main_arg9) = _
  dsimp only [hostOps3]
  after_results
  exact arg9_W6 m ρ c
theorem arg9_W8 (c : Dev nD) : W8 m ρ c (Proc.devRef .tc main_arg9) = (m ((c : Thread nD τ).loc main_arg9)) :=
  (W8_of_ne m ρ c main_arg9 (by decide)).trans (arg9_W7 m ρ c)
theorem arg9_W9 (c : Dev nD) : W9 m ρ c (Proc.devRef .tc main_arg9) = (m ((c : Thread nD τ).loc main_arg9)) := by
  show StableHlo.after hostOps4 (W8 m ρ c) (Proc.devRef .tc main_arg9) = _
  dsimp only [hostOps4]
  after_results
  exact arg9_W8 m ρ c
theorem arg9_W10 (c : Dev nD) : W10 m ρ c (Proc.devRef .tc main_arg9) = (m ((c : Thread nD τ).loc main_arg9)) :=
  (W10_of_ne m ρ c main_arg9 (by decide)).trans (arg9_W9 m ρ c)
theorem arg10_W1 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results
theorem arg10_W2 (c : Dev nD) : W2 m ρ c (Proc.devRef .tc main_arg10) = (m ((c : Thread nD τ).loc main_arg10)) :=
  (W2_of_ne m ρ c main_arg10 (by decide)).trans (arg10_W1 m ρ c)
theorem arg10_W3 (c : Dev nD) : W3 m ρ c (Proc.devRef .tc main_arg10) = (m ((c : Thread nD τ).loc main_arg10)) := by
  show StableHlo.after hostOps1 (W2 m ρ c) (Proc.devRef .tc main_arg10) = _
  dsimp only [hostOps1]
  after_results
  exact arg10_W2 m ρ c
theorem arg10_W4 (c : Dev nD) : W4 m ρ c (Proc.devRef .tc main_arg10) = (m ((c : Thread nD τ).loc main_arg10)) :=
  (W4_of_ne m ρ c main_arg10 (by decide)).trans (arg10_W3 m ρ c)
theorem arg10_W5 (c : Dev nD) : W5 m ρ c (Proc.devRef .tc main_arg10) = (m ((c : Thread nD τ).loc main_arg10)) := by
  show StableHlo.after hostOps2 (W4 m ρ c) (Proc.devRef .tc main_arg10) = _
  dsimp only [hostOps2]
  after_results
  exact arg10_W4 m ρ c
theorem arg10_W6 (c : Dev nD) : W6 m ρ c (Proc.devRef .tc main_arg10) = (m ((c : Thread nD τ).loc main_arg10)) :=
  (W6_of_ne m ρ c main_arg10 (by decide)).trans (arg10_W5 m ρ c)
theorem arg11_W1 (c : Dev nD) : W1 m ρ c (Proc.devRef .tc main_arg11) = (m ((c : Thread nD τ).loc main_arg11)) := by
  show StableHlo.after hostOps0 (W0 m ρ c) (Proc.devRef .tc main_arg11) = _
  dsimp only [hostOps0]
  after_results
theorem arg11_W2 (c : Dev nD) : W2 m ρ c (Proc.devRef .tc main_arg11) = (m ((c : Thread nD τ).loc main_arg11)) :=
  (W2_of_ne m ρ c main_arg11 (by decide)).trans (arg11_W1 m ρ c)
theorem arg11_W3 (c : Dev nD) : W3 m ρ c (Proc.devRef .tc main_arg11) = (m ((c : Thread nD τ).loc main_arg11)) := by
  show StableHlo.after hostOps1 (W2 m ρ c) (Proc.devRef .tc main_arg11) = _
  dsimp only [hostOps1]
  after_results
  exact arg11_W2 m ρ c
theorem arg11_W4 (c : Dev nD) : W4 m ρ c (Proc.devRef .tc main_arg11) = (m ((c : Thread nD τ).loc main_arg11)) :=
  (W4_of_ne m ρ c main_arg11 (by decide)).trans (arg11_W3 m ρ c)
theorem arg11_W5 (c : Dev nD) : W5 m ρ c (Proc.devRef .tc main_arg11) = (m ((c : Thread nD τ).loc main_arg11)) := by
  show StableHlo.after hostOps2 (W4 m ρ c) (Proc.devRef .tc main_arg11) = _
  dsimp only [hostOps2]
  after_results
  exact arg11_W4 m ρ c
theorem arg11_W6 (c : Dev nD) : W6 m ρ c (Proc.devRef .tc main_arg11) = (m ((c : Thread nD τ).loc main_arg11)) :=
  (W6_of_ne m ρ c main_arg11 (by decide)).trans (arg11_W5 m ρ c)
theorem arg11_W7 (c : Dev nD) : W7 m ρ c (Proc.devRef .tc main_arg11) = (m ((c : Thread nD τ).loc main_arg11)) := by
  show StableHlo.after hostOps3 (W6 m ρ c) (Proc.devRef .tc main_arg11) = _
  dsimp only [hostOps3]
  after_results
  exact arg11_W6 m ρ c
theorem arg11_W8 (c : Dev nD) : W8 m ρ c (Proc.devRef .tc main_arg11) = (m ((c : Thread nD τ).loc main_arg11)) :=
  (W8_of_ne m ρ c main_arg11 (by decide)).trans (arg11_W7 m ρ c)

/-! ## The data, boundary by boundary -/

/-- Boundary 1: the first bias as a row. -/
theorem v0_W1 (c : Dev nD) : W1 m ρ c (Proc.devRef .tc main_v0) = row (m ((c : Thread nD τ).loc main_arg3)) := by
  show StableHlo.after hostOps0 (W0 m ρ c) (Proc.devRef .tc main_v0) = _
  dsimp only [hostOps0]
  after_results
  rfl

/-- Boundary 2: the first dense layer. -/
theorem v1_W2 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W2 m ρ c (Proc.devRef .tc main_v1) = lin1 D1 hb (m ((c : Thread nD τ).loc main_arg0)) (m ((c : Thread nD τ).loc main_arg2)) (m ((c : Thread nD τ).loc main_arg3)) := by
  refine (W2_arr m ρ c 3).trans ((Dense0.final (V1 m ρ) D1 hD1 hb c).trans ?_)
  show GcnLaws.dense (M := 100000) (K := 256) (N := 128) D1 hb (W1 m ρ c (Proc.devRef .tc main_arg0)) (W1 m ρ c (Proc.devRef .tc main_arg2)) (W1 m ρ c (Proc.devRef .tc main_v0)) = _
  rw [arg0_W1 m ρ c, arg2_W1 m ρ c, v0_W1 m ρ c]
  rfl

/-- Boundary 3: the gathered rows, and the weights as a column. -/
theorem v8_W3 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W3 m ρ c (Proc.devRef .tc main_v8) = msg1 D1 hb (m ((c : Thread nD τ).loc main_arg0)) (m ((c : Thread nD τ).loc main_arg2)) (m ((c : Thread nD τ).loc main_arg3)) (m ((c : Thread nD τ).loc main_arg10)) := by
  show StableHlo.after hostOps1 (W2 m ρ c) (Proc.devRef .tc main_v8) = _
  dsimp only [hostOps1]
  after_results
  rw [v1_W2 m ρ D1 hD1 D2 hD2 hb hc h0 c, arg10_W2 m ρ c]
  rfl
theorem v9_W3 (c : Dev nD) : W3 m ρ c (Proc.devRef .tc main_v9) = col (m ((c : Thread nD τ).loc main_arg1)) := by
  show StableHlo.after hostOps1 (W2 m ρ c) (Proc.devRef .tc main_v9) = _
  dsimp only [hostOps1]
  after_results
  rw [arg1_W2 m ρ c]
  rfl

/-- Boundary 4: the scaled rows. -/
theorem v10_W4 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W4 m ρ c (Proc.devRef .tc main_v10) = sc1 D1 hb hc (m ((c : Thread nD τ).loc main_arg0)) (m ((c : Thread nD τ).loc main_arg1)) (m ((c : Thread nD τ).loc main_arg2)) (m ((c : Thread nD τ).loc main_arg3)) (m ((c : Thread nD τ).loc main_arg10)) := by
  refine (W4_arr m ρ c 2).trans ((Scale1.final (V3 m ρ) hc c).trans ?_)
  show GcnLaws.scale (E := 1600000) (N := 128) hc (W3 m ρ c (Proc.devRef .tc main_v8)) (W3 m ρ c (Proc.devRef .tc main_v9)) = _
  rw [v8_W3 m ρ D1 hD1 D2 hD2 hb hc h0 c, v9_W3 m ρ c]
  rfl

/-- Boundary 5: the hidden features, and the second bias as a row. -/
theorem v15_W5 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W5 m ρ c (Proc.devRef .tc main_v15) = hid D1 hb hc (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  show StableHlo.after hostOps2 (W4 m ρ c) (Proc.devRef .tc main_v15) = _
  dsimp only [hostOps2]
  after_results
  rw [v10_W4 m ρ D1 hD1 D2 hD2 hb hc h0 c, arg11_W4 m ρ c]
  rfl
theorem v16_W5 (c : Dev nD) : W5 m ρ c (Proc.devRef .tc main_v16) = row (m ((c : Thread nD τ).loc main_arg5)) := by
  show StableHlo.after hostOps2 (W4 m ρ c) (Proc.devRef .tc main_v16) = _
  dsimp only [hostOps2]
  after_results
  rw [arg5_W4 m ρ c]
  rfl

/-- Boundary 6: the second dense layer. -/
theorem v17_W6 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W6 m ρ c (Proc.devRef .tc main_v17) = lin2 D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  refine (W6_arr m ρ c 3).trans ((Dense2.final (V5 m ρ) D2 hD2 hb c).trans ?_)
  show GcnLaws.dense (M := 100000) (K := 128) (N := 128) D2 hb (W5 m ρ c (Proc.devRef .tc main_v15)) (W5 m ρ c (Proc.devRef .tc main_arg4)) (W5 m ρ c (Proc.devRef .tc main_v16)) = _
  rw [v15_W5 m ρ D1 hD1 D2 hD2 hb hc h0 c, arg4_W5 m ρ c, v16_W5 m ρ c]
  rfl

/-- Boundary 7: the gathered rows, and the weights as a column. -/
theorem v24_W7 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W7 m ρ c (Proc.devRef .tc main_v24) = msg2 D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  show StableHlo.after hostOps3 (W6 m ρ c) (Proc.devRef .tc main_v24) = _
  dsimp only [hostOps3]
  after_results
  rw [v17_W6 m ρ D1 hD1 D2 hD2 hb hc h0 c, arg10_W6 m ρ c]
  rfl
theorem v25_W7 (c : Dev nD) : W7 m ρ c (Proc.devRef .tc main_v25) = col (m ((c : Thread nD τ).loc main_arg1)) := by
  show StableHlo.after hostOps3 (W6 m ρ c) (Proc.devRef .tc main_v25) = _
  dsimp only [hostOps3]
  after_results
  rw [arg1_W6 m ρ c]
  rfl

/-- Boundary 8: the scaled rows. -/
theorem v26_W8 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W8 m ρ c (Proc.devRef .tc main_v26) = sc2 D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  refine (W8_arr m ρ c 2).trans ((Scale3.final (V7 m ρ) hc c).trans ?_)
  show GcnLaws.scale (E := 1600000) (N := 128) hc (W7 m ρ c (Proc.devRef .tc main_v24)) (W7 m ρ c (Proc.devRef .tc main_v25)) = _
  rw [v24_W7 m ρ D1 hD1 D2 hD2 hb hc h0 c, v25_W7 m ρ c]
  rfl

/-- Boundary 9: the embeddings, and the third bias as a row. -/
theorem v29_W9 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W9 m ρ c (Proc.devRef .tc main_v29) = emb D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  show StableHlo.after hostOps4 (W8 m ρ c) (Proc.devRef .tc main_v29) = _
  dsimp only [hostOps4]
  after_results
  rw [v26_W8 m ρ D1 hD1 D2 hD2 hb hc h0 c, arg11_W8 m ρ c]
  rfl
theorem v30_W9 (c : Dev nD) : W9 m ρ c (Proc.devRef .tc main_v30) = row (m ((c : Thread nD τ).loc main_arg7)) := by
  show StableHlo.after hostOps4 (W8 m ρ c) (Proc.devRef .tc main_v30) = _
  dsimp only [hostOps4]
  after_results
  rw [arg7_W8 m ρ c]
  rfl

/-- Boundary 10: the head's first layer; the embeddings, read by that call, are still there. -/
theorem v31_W10 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W10 m ρ c (Proc.devRef .tc main_v31) = proj D1 D2 hb hc h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  refine (W10_arr m ρ c 3).trans ((Dense4.final (V9 m ρ) D2 hD2 hb h0 c).trans ?_)
  show GcnLaws.relu S100000x128 h0 (GcnLaws.dense (M := 100000) (K := 128) (N := 128) D2 hb (W9 m ρ c (Proc.devRef .tc main_v29)) (W9 m ρ c (Proc.devRef .tc main_arg6)) (W9 m ρ c (Proc.devRef .tc main_v30))) = _
  rw [v29_W9 m ρ D1 hD1 D2 hD2 hb hc h0 c, arg6_W9 m ρ c, v30_W9 m ρ c]
  rfl
theorem v29_W10 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W10 m ρ c (Proc.devRef .tc main_v29) = emb D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  (W10_arr m ρ c 0).trans (((dat4 (V9 m ρ) c).arrAt_in 0 rfl _).trans ((A_eq4 (V9 m ρ) c 0).trans (v29_W9 m ρ D1 hD1 D2 hD2 hb hc h0 c)))

/-- Boundary 11: the last bias as a row; the head's first layer and the embeddings pass through. -/
theorem v32_W11 (c : Dev nD) : W11 m ρ c (Proc.devRef .tc main_v32) = row (m ((c : Thread nD τ).loc main_arg9)) := by
  show StableHlo.after hostOps5 (W10 m ρ c) (Proc.devRef .tc main_v32) = _
  dsimp only [hostOps5]
  after_results
  rw [arg9_W10 m ρ c]
  rfl
theorem v31_W11 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W11 m ρ c (Proc.devRef .tc main_v31) = proj D1 D2 hb hc h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  show StableHlo.after hostOps5 (W10 m ρ c) (Proc.devRef .tc main_v31) = _
  dsimp only [hostOps5]
  after_results
  exact v31_W10 m ρ D1 hD1 D2 hD2 hb hc h0 c
theorem v29_W11 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W11 m ρ c (Proc.devRef .tc main_v29) = emb D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  show StableHlo.after hostOps5 (W10 m ρ c) (Proc.devRef .tc main_v29) = _
  dsimp only [hostOps5]
  after_results
  exact v29_W10 m ρ D1 hD1 D2 hD2 hb hc h0 c

/-- THE LAST BOUNDARY, at the program's first result: the head's output. -/
theorem v33_W12 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W12 m ρ c (Proc.devRef .tc main_v33) = out D1 D2 hb hc h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 3).trans ((Dense5.final (V11 m ρ) D2 hD2 hb c).trans ?_)
  show GcnLaws.dense (M := 100000) (K := 128) (N := 128) D2 hb (W11 m ρ c (Proc.devRef .tc main_v31)) (W11 m ρ c (Proc.devRef .tc main_arg8)) (W11 m ρ c (Proc.devRef .tc main_v32)) = _
  rw [v31_W11 m ρ D1 hD1 D2 hD2 hb hc h0 c, arg8_W11 m ρ c, v32_W11 m ρ c]
  rfl
/-- THE LAST BOUNDARY, at the program's second result: the embeddings, which the last call does not touch. -/
theorem v29_W12 (D1 : DotDims S100000x256 S256x128 S100000x128) (hD1 : PlainDot.IsPlain (M := 100000) (K := 256) (N := 128) D1)
    (D2 : DotDims S100000x128 S128x128 S100000x128) (hD2 : PlainDot.IsPlain (M := 100000) (K := 128) (N := 128) D2)
    (hb : S1x128.BroadcastsInDim S100000x128 (![0, 1] : Fin 2 → Fin 2)) (hc : S1600000x1.BroadcastsInDim S1600000x128 (![0, 1] : Fin 2 → Fin 2)) (h0 : S_.BroadcastsInDim S100000x128 (![] : Fin 0 → Fin S100000x128.rank)) (c : Dev nD) : W12 m ρ c (Proc.devRef .tc main_v29) = emb D1 D2 hb hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  (W12_of_ne m ρ c main_v29 (by decide)).trans (v29_W11 m ρ D1 hD1 D2 hD2 hb hc h0 c)

end

end Cert.KernelIdeal.Fold

end
-- ==== Proof.KernelRun.lean ====
/-
  The idealized kernel's run with its results named: every weakly fair execution of the program ends, nothing faulting,
  with the two result arrays holding what the last segment boundary holds for them, and the twelve argument arrays as
  launched. The program is twelve segments — six stretches of host operations and six pallas calls — and the contents at
  each boundary are a fold from the launch memory; the last boundary is the twelfth. What those contents ARE, as
  functions of the arguments, is read elsewhere; here only the run is made, over the segments, and the final memory read.
-/
import proofs.«179834_j2774548873594_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the twelve segments: both results at the last boundary's contents, the arguments as launched. -/
theorem run : θ_run defs (onTc (τ := τ) (main (F := F))) ⟨m, fun _ => 0, ρ⟩ (fun r => ∀ c : Dev nD,
      r.2.mem ((c.tc : Thread nD τ).loc main_v33) = W12 m ρ c (Proc.devRef .tc main_v33)
      ∧ r.2.mem ((c.tc : Thread nD τ).loc main_v29) = W12 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v33 (by decide)),
       h c _ (mem_uc main_v29 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Run

end
-- ==== Proof.Bridge.lean ====
/-
  The bridge between the two idealized programs.

  The reference computes, with host operations only, what the kernel's program computes with six pallas calls among the
  same host operations: the same gathers, the same scatter-sums, the same shift of negative node numbers, the same
  rectifier between the layers. The pallas calls' results were read as whole-array layers spelt the reference's way (a
  matrix product plus the bias row spread down the rows; a product with the weight column spread across the lanes; a
  maximum with the zero splat), so what is left is to see that the kernel's program feeds them the same operands:
  it recasts each bias vector as a one-row matrix and the edge weights as a column, where the reference spreads the vector
  into that shape — the same array. With that, the kernel program's two results are the reference's two stage
  functions of the same twelve arrays, and the two runs end with equal results from memories that agree on the arguments.
-/
import proofs.«179834_j2774548873594_1_alg».proof.Defs
import proofs.«179834_j2774548873594_1_alg».proof.Proof.Gen.Pre_finite_inputs
import proofs.«179834_j2774548873594_1_alg».proof.Proof.KernelFold
import proofs.«179834_j2774548873594_1_alg».proof.Proof.KernelRun
import proofs.«179834_j2774548873594_1_alg».proof.Proof.Gen.ReferenceIdeal.Read

set_option maxRecDepth 16384

noncomputable section

namespace Cert.Bridge

open Idealize.ShloMosaic Idealize.ShloMosaic.TcCoe Idealize.SL.Sem

/-- The reference's first product record is a plain [100000, 256] × [256, 128] product. -/
theorem plain1 : PlainDot.IsPlain (M := 100000) (K := 256) (N := 128) Cert.ReferenceIdeal.dot_S100000x256_S256x128_S100000x128_1_0_0_1_n_n where
  rank := rfl
  size := rfl
  lhs0 := fun i q => by
    unfold DotDims.lhsIdx
    rw [dif_neg (show ¬(0 : Fin Cert.ReferenceIdeal.S100000x256.rank) ∈ Cert.ReferenceIdeal.dot_S100000x256_S256x128_S100000x128_1_0_0_1_n_n.lhsBatch by decide),
      dif_pos (show (0 : Fin Cert.ReferenceIdeal.S100000x256.rank) ∈ Cert.ReferenceIdeal.dot_S100000x256_S256x128_S100000x128_1_0_0_1_n_n.lhsNonContracting by decide)]
    rfl
  lhs1 := fun i q => Cert.ReferenceIdeal.dot_S100000x256_S256x128_S100000x128_1_0_0_1_n_n.lhsIdx_val_of_single rfl i q
  rhs0 := fun i q => Cert.ReferenceIdeal.dot_S100000x256_S256x128_S100000x128_1_0_0_1_n_n.rhsIdx_val_of_single rfl i q
  rhs1 := fun i q => by
    unfold DotDims.rhsIdx
    rw [dif_neg (show ¬(1 : Fin Cert.ReferenceIdeal.S256x128.rank) ∈ Cert.ReferenceIdeal.dot_S100000x256_S256x128_S100000x128_1_0_0_1_n_n.rhsBatch by decide),
      dif_pos (show (1 : Fin Cert.ReferenceIdeal.S256x128.rank) ∈ Cert.ReferenceIdeal.dot_S100000x256_S256x128_S100000x128_1_0_0_1_n_n.rhsNonContracting by decide)]
    rfl

/-- The reference's second product record is a plain [100000, 128] × [128, 128] product. -/
theorem plain2 : PlainDot.IsPlain (M := 100000) (K := 128) (N := 128) Cert.ReferenceIdeal.dot_S100000x128_S128x128_S100000x128_1_0_0_1_n_n where
  rank := rfl
  size := rfl
  lhs0 := fun i q => by
    unfold DotDims.lhsIdx
    rw [dif_neg (show ¬(0 : Fin Cert.ReferenceIdeal.S100000x128.rank) ∈ Cert.ReferenceIdeal.dot_S100000x128_S128x128_S100000x128_1_0_0_1_n_n.lhsBatch by decide),
      dif_pos (show (0 : Fin Cert.ReferenceIdeal.S100000x128.rank) ∈ Cert.ReferenceIdeal.dot_S100000x128_S128x128_S100000x128_1_0_0_1_n_n.lhsNonContracting by decide)]
    rfl
  lhs1 := fun i q => Cert.ReferenceIdeal.dot_S100000x128_S128x128_S100000x128_1_0_0_1_n_n.lhsIdx_val_of_single rfl i q
  rhs0 := fun i q => Cert.ReferenceIdeal.dot_S100000x128_S128x128_S100000x128_1_0_0_1_n_n.rhsIdx_val_of_single rfl i q
  rhs1 := fun i q => by
    unfold DotDims.rhsIdx
    rw [dif_neg (show ¬(1 : Fin Cert.ReferenceIdeal.S128x128.rank) ∈ Cert.ReferenceIdeal.dot_S100000x128_S128x128_S100000x128_1_0_0_1_n_n.rhsBatch by decide),
      dif_pos (show (1 : Fin Cert.ReferenceIdeal.S128x128.rank) ∈ Cert.ReferenceIdeal.dot_S100000x128_S128x128_S100000x128_1_0_0_1_n_n.rhsNonContracting by decide)]
    rfl

open Cert.ReferenceIdeal.Read in
/-- The hidden features: the kernel program's are the reference's rectified first layer. -/
theorem hid_eq (x0 : (⟨Cert.ReferenceIdeal.S100000x256, .f32⟩ : BufTy).Contents (Elt Ideal)) (x1 : (⟨Cert.ReferenceIdeal.S1600000, .f32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x10 : (⟨Cert.ReferenceIdeal.S1600000, .i32⟩ : BufTy).Contents (Elt Ideal)) (x11 : (⟨Cert.ReferenceIdeal.S1600000, .i32⟩ : BufTy).Contents (Elt Ideal)) :
    Cert.KernelIdeal.Fold.hid (Cert.ReferenceIdeal.dot_S100000x256_S256x128_S100000x128_1_0_0_1_n_n) (Cert.ReferenceIdeal.Facts₀.bcast_S1x128_S100000x128_0_1) (Cert.ReferenceIdeal.Facts₀.bcast_S1600000x1_S1600000x128_0_1) x0 x1 x2 x3 x10 x11 = val_main_v17 (F := Ideal) x0 x1 x2 x3 x10 x11 := by
  unfold Cert.KernelIdeal.Fold.hid Cert.KernelIdeal.Fold.sc1 Cert.KernelIdeal.Fold.msg1 Cert.KernelIdeal.Fold.lin1
    GcnLaws.dense GcnLaws.scale Cert.KernelIdeal.Fold.row Cert.KernelIdeal.Fold.col
  rw [GcnLaws.rowCast_eq_rowSpread (N := 128) x3 _ Cert.ReferenceIdeal.Facts₀.bcast_S128_S1x128_1, GcnLaws.colCast_eq_colSpread (E := 1600000) x1 _ Cert.ReferenceIdeal.Facts₀.bcast_S1600000_S1600000x1_0]
  rfl

open Cert.ReferenceIdeal.Read in
/-- The embeddings: the kernel program's are the reference's second layer. -/
theorem emb_eq (x0 : (⟨Cert.ReferenceIdeal.S100000x256, .f32⟩ : BufTy).Contents (Elt Ideal)) (x1 : (⟨Cert.ReferenceIdeal.S1600000, .f32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x10 : (⟨Cert.ReferenceIdeal.S1600000, .i32⟩ : BufTy).Contents (Elt Ideal)) (x11 : (⟨Cert.ReferenceIdeal.S1600000, .i32⟩ : BufTy).Contents (Elt Ideal)) :
    Cert.KernelIdeal.Fold.emb (Cert.ReferenceIdeal.dot_S100000x256_S256x128_S100000x128_1_0_0_1_n_n) (Cert.ReferenceIdeal.dot_S100000x128_S128x128_S100000x128_1_0_0_1_n_n) (Cert.ReferenceIdeal.Facts₀.bcast_S1x128_S100000x128_0_1) (Cert.ReferenceIdeal.Facts₀.bcast_S1600000x1_S1600000x128_0_1) x0 x1 x2 x3 x4 x5 x10 x11 = val_main_v34 (F := Ideal) x0 x1 x2 x3 x4 x5 x10 x11 := by
  unfold Cert.KernelIdeal.Fold.emb Cert.KernelIdeal.Fold.sc2 Cert.KernelIdeal.Fold.msg2 Cert.KernelIdeal.Fold.lin2
  rw [hid_eq]
  unfold GcnLaws.dense GcnLaws.scale Cert.KernelIdeal.Fold.row Cert.KernelIdeal.Fold.col
  rw [GcnLaws.rowCast_eq_rowSpread (N := 128) x5 _ Cert.ReferenceIdeal.Facts₀.bcast_S128_S1x128_1, GcnLaws.colCast_eq_colSpread (E := 1600000) x1 _ Cert.ReferenceIdeal.Facts₀.bcast_S1600000_S1600000x1_0]
  rfl

open Cert.ReferenceIdeal.Read in
/-- The head's first layer, rectified. -/
theorem proj_eq (x0 : (⟨Cert.ReferenceIdeal.S100000x256, .f32⟩ : BufTy).Contents (Elt Ideal)) (x1 : (⟨Cert.ReferenceIdeal.S1600000, .f32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x10 : (⟨Cert.ReferenceIdeal.S1600000, .i32⟩ : BufTy).Contents (Elt Ideal)) (x11 : (⟨Cert.ReferenceIdeal.S1600000, .i32⟩ : BufTy).Contents (Elt Ideal)) :
    Cert.KernelIdeal.Fold.proj (Cert.ReferenceIdeal.dot_S100000x256_S256x128_S100000x128_1_0_0_1_n_n) (Cert.ReferenceIdeal.dot_S100000x128_S128x128_S100000x128_1_0_0_1_n_n) (Cert.ReferenceIdeal.Facts₀.bcast_S1x128_S100000x128_0_1) (Cert.ReferenceIdeal.Facts₀.bcast_S1600000x1_S1600000x128_0_1) (Cert.ReferenceIdeal.Facts₀.bcast_S_S100000x128) x0 x1 x2 x3 x4 x5 x6 x7 x10 x11 = val_main_v39 (F := Ideal) x0 x1 x2 x3 x4 x5 x6 x7 x10 x11 := by
  unfold Cert.KernelIdeal.Fold.proj
  rw [emb_eq]
  unfold GcnLaws.relu GcnLaws.dense Cert.KernelIdeal.Fold.row
  rw [GcnLaws.rowCast_eq_rowSpread (N := 128) x7 _ Cert.ReferenceIdeal.Facts₀.bcast_S128_S1x128_1]
  rfl

open Cert.ReferenceIdeal.Read in
/-- The head's output. -/
theorem out_eq (x0 : (⟨Cert.ReferenceIdeal.S100000x256, .f32⟩ : BufTy).Contents (Elt Ideal)) (x1 : (⟨Cert.ReferenceIdeal.S1600000, .f32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S1600000, .i32⟩ : BufTy).Contents (Elt Ideal)) (x11 : (⟨Cert.ReferenceIdeal.S1600000, .i32⟩ : BufTy).Contents (Elt Ideal)) :
    Cert.KernelIdeal.Fold.out (Cert.ReferenceIdeal.dot_S100000x256_S256x128_S100000x128_1_0_0_1_n_n) (Cert.ReferenceIdeal.dot_S100000x128_S128x128_S100000x128_1_0_0_1_n_n) (Cert.ReferenceIdeal.Facts₀.bcast_S1x128_S100000x128_0_1) (Cert.ReferenceIdeal.Facts₀.bcast_S1600000x1_S1600000x128_0_1) (Cert.ReferenceIdeal.Facts₀.bcast_S_S100000x128) x0 x1 x2 x3 x4 x5 x6 x7 x8 x9 x10 x11 = val_main_v43 (F := Ideal) x0 x1 x2 x3 x4 x5 x6 x7 x8 x9 x10 x11 := by
  unfold Cert.KernelIdeal.Fold.out
  rw [proj_eq]
  unfold GcnLaws.dense Cert.KernelIdeal.Fold.row
  rw [GcnLaws.rowCast_eq_rowSpread (N := 128) x9 _ Cert.ReferenceIdeal.Facts₀.bcast_S128_S1x128_1]
  rfl

/-- At the extended reals the two programs, run from memories agreeing on the arguments, end with equal results: the
    head's output and the embeddings, as the same functions of the twelve argument arrays. -/
theorem algebraic : Cert.algebraic_KernelIdeal_ReferenceIdeal := by
  intro m ρ m' ρ' _ hagree
  refine ⟨fun c => Cert.KernelIdeal.Fold.out (Cert.ReferenceIdeal.dot_S100000x256_S256x128_S100000x128_1_0_0_1_n_n) (Cert.ReferenceIdeal.dot_S100000x128_S128x128_S100000x128_1_0_0_1_n_n) (Cert.ReferenceIdeal.Facts₀.bcast_S1x128_S100000x128_0_1) (Cert.ReferenceIdeal.Facts₀.bcast_S1600000x1_S1600000x128_0_1) (Cert.ReferenceIdeal.Facts₀.bcast_S_S100000x128) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Fold.emb (Cert.ReferenceIdeal.dot_S100000x256_S256x128_S100000x128_1_0_0_1_n_n) (Cert.ReferenceIdeal.dot_S100000x128_S128x128_S100000x128_1_0_0_1_n_n) (Cert.ReferenceIdeal.Facts₀.bcast_S1x128_S100000x128_0_1) (Cert.ReferenceIdeal.Facts₀.bcast_S1600000x1_S1600000x128_0_1) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KernelIdeal.Fold.v33_W12 m ρ _ plain1 _ plain2 _ _ _ c),
       (h c).2.1.trans (Cert.KernelIdeal.Fold.v29_W12 m ρ _ plain1 _ plain2 _ _ (Cert.ReferenceIdeal.Facts₀.bcast_S_S100000x128) c), (h c).2.2⟩)
      (Cert.KernelIdeal.Run.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11⟩ := hagree c
      rw [e0, e1, e2, e3, e4, e5, e6, e7, e8, e9, e10, e11]
      exact (Cert.ReferenceIdeal.Read.val_main_v43_eq _ _ _ _ _ _ _ _ _ _ _ _).trans (out_eq _ _ _ _ _ _ _ _ _ _ _ _).symm
    · obtain ⟨e0, e1, e2, e3, e4, e5, e6, e7, e8, e9, e10, e11⟩ := hagree c
      rw [e0, e1, e2, e3, e4, e5, e10, e11]
      exact (Cert.ReferenceIdeal.Read.val_main_v34_eq _ _ _ _ _ _ _ _).trans (emb_eq _ _ _ _ _ _ _ _).symm

end Cert.Bridge

end
-- ==== Proof.lean ====
/-
  A two-layer graph convolution with a two-layer projection head, as a kernel program against its reference, on the
  extended reals.

  The kernel program runs four dense layers and two edge scalings as tiled pallas calls (row tiles of 5000 nodes, of 8000
  edges) among host gathers, scatter-sums and a rectifier; the reference runs everything on the host. A tile of a dense
  layer holds whole rows of the activations and the whole weight matrix, so it computes whole rows of the layer: the sum
  over the contracted axis is the same sum, in the same arrangement, and narrowing the operands of the product is the
  identity on the extended reals. A tile of an edge scaling multiplies rows by their own edges' weights. So each call
  leaves the whole-array layer of what it was given, the host operations between them are the reference's own, and the
  two results agree as functions of the twelve argument arrays. No law of arithmetic beyond these identities is used, and
  the finiteness of the inputs is not needed.

  The three frame claims: the two kernel programs by their segments' run; the reference by its run with the results
  dropped. The kernel's idealization rewrote nothing, so there is nothing to preserve.
-/
import proofs.«179834_j2774548873594_1_alg».proof.Defs
import proofs.«179834_j2774548873594_1_alg».proof.Proof.Gen.Kernel
import proofs.«179834_j2774548873594_1_alg».proof.Proof.Gen.Kernel.Skeleton
import proofs.«179834_j2774548873594_1_alg».proof.Proof.Gen.Kernel.Launch
import proofs.«179834_j2774548873594_1_alg».proof.Proof.Gen.Kernel.Points
import proofs.«179834_j2774548873594_1_alg».proof.Proof.Gen.Kernel.Frame
import proofs.«179834_j2774548873594_1_alg».proof.Proof.Gen.KernelIdeal
import proofs.«179834_j2774548873594_1_alg».proof.Proof.Gen.KernelIdeal.Skeleton
import proofs.«179834_j2774548873594_1_alg».proof.Proof.Gen.KernelIdeal.Launch
import proofs.«179834_j2774548873594_1_alg».proof.Proof.Gen.KernelIdeal.Points
import proofs.«179834_j2774548873594_1_alg».proof.Proof.Gen.KernelIdeal.Frame
import proofs.«179834_j2774548873594_1_alg».proof.Proof.Gen.ReferenceIdeal
import proofs.«179834_j2774548873594_1_alg».proof.Proof.Gen.ReferenceIdeal.Run
import proofs.«179834_j2774548873594_1_alg».proof.Proof.Gen.ReferenceIdeal.Read
import proofs.«179834_j2774548873594_1_alg».proof.Proof.Gen.Pre_finite_inputs
import proofs.«179834_j2774548873594_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
